-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S2000000x42 : S_.BroadcastsInDim S2000000x42 (![] : Fin 0 → Fin S2000000x42.rank)
  reducesTo_S2000000x42_S_d0_1 : S2000000x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_

variable [Facts]

def fn_part7 {F : FTy → Type} [FloatOps F] (main_arg27 : FVec F S128x128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg27
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg23 : FVec F S128x128 .f32) (main_arg24 : FVec F S128 .f32) (main_arg25 : FVec F S128x128 .f32) (main_arg26 : FVec F S128 .f32) (main_arg27 : FVec F S128x128 .f32) (main_arg28 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg27 main_arg28 main_v118 main_v119

def fn_part5 {F : FTy → Type} [FloatOps F] (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg7
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg8
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S200000x128 .f32) (main_arg1 : FVec F S200000x6 .f32) (main_arg2 : FVec F S2000000x42 .f32) (main_arg3 : IVec S2000000 32) (main_arg4 : IVec S2000000 32) (main_arg5 : FVec F S6x8 .f32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S128x128 .f32) (main_arg28 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x6 .f32 := Host.absf main_arg1
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S2000000x42 .f32 := Host.absf main_arg2
  let main_cst_2 : FVec F S_ .f32 := constant S_ .f32 0x7F800000#32
  let main_v10 : FVec F S2000000x42 .f32 := broadcastInDim S2000000x42 ![] bcast_S_S2000000x42 main_cst_2
  let main_v11 : IVec S2000000x42 1 := cmpf .olt main_v9 main_v10
  let main_c_3 : IVec S_ 1 := constantI S_ 1 1#1
  let main_v12 : IVec S_ 1 := (fun x v => Host.reduce IntOp.andi x v reducesTo_S2000000x42_S_d0_1 h_S_) main_v11 main_c_3
  let main_v13 : IVec S_ 1 := andi main_v8 main_v12
  let main_v14 : FVec F S6x8 .f32 := Host.absf main_arg5
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S200000x128 : Shape := ⟨2, ![200000, 128]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S6x128 : Shape := ⟨2, ![6, 128]⟩
abbrev S42x64 : Shape := ⟨2, ![42, 64]⟩
abbrev S200000x64 : Shape := ⟨2, ![200000, 64]⟩
abbrev S5000x128 : Shape := ⟨2, ![5000, 128]⟩
abbrev S5000x6 : Shape := ⟨2, ![5000, 6]⟩
abbrev S5000x64 : Shape := ⟨2, ![5000, 64]⟩
abbrev S1x128 : Shape := ⟨2, ![1, 128]⟩
abbrev S_ : Shape := ⟨0, ![]⟩
abbrev S2000000x1 : Shape := ⟨2, ![2000000, 1]⟩
abbrev S2000000x64 : Shape := ⟨2, ![2000000, 64]⟩
abbrev S8000x42 : Shape := ⟨2, ![8000, 42]⟩
abbrev S8000x64 : Shape := ⟨2, ![8000, 64]⟩
abbrev S4000x128 : Shape := ⟨2, ![4000, 128]⟩
abbrev S4000x64 : Shape := ⟨2, ![4000, 64]⟩

abbrev nBuf : Space → Nat
  | .hbm => 49
  | .vmem => 44
  | .smem => 0
  | _ => 0

abbrev bufTy : (tb : Table) → Fin (tcTables nBuf tb) → BufTy
  | .hbm, ⟨0, _⟩ => ⟨S200000x128, .f32⟩
  | .hbm, ⟨1, _⟩ => ⟨S200000x6, .f32⟩
  | .hbm, ⟨2, _⟩ => ⟨S2000000x42, .f32⟩
  | .hbm, ⟨3, _⟩ => ⟨S2000000, .i32⟩
  | .hbm, ⟨4, _⟩ => ⟨S2000000, .i32⟩
  | .hbm, ⟨5, _⟩ => ⟨S6x8, .f32⟩
  | .hbm, ⟨6, _⟩ => ⟨S8x128, .f32⟩
  | .hbm, ⟨7, _⟩ => ⟨S42x8, .f32⟩
  | .hbm, ⟨8, _⟩ => ⟨S8x64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S6x128, .f32⟩
  | .hbm, ⟨30, _⟩ => ⟨S42x64, .f32⟩
  | .hbm, ⟨31, _⟩ => ⟨S200000x128, .bf16⟩
  | .hbm, ⟨32, _⟩ => ⟨S200000x64, .bf16⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000x64, .bf16⟩
  | .hbm, ⟨42, _⟩ => ⟨S2000000x64, .bf16⟩
  | .hbm, ⟨43, _⟩ => ⟨S2000000x64, .f32⟩
  | .hbm, ⟨44, _⟩ => ⟨S_, .f32⟩
  | .hbm, ⟨45, _⟩ => ⟨S200000x64, .f32⟩
  | .hbm, ⟨46, _⟩ => ⟨S2000000x1, .i32⟩
  | .hbm, ⟨47, _⟩ => ⟨S200000x64, .f32⟩
  | .hbm, ⟨48, _⟩ => ⟨S200000x128, .f32⟩
  | .local _ .vmem, ⟨0, _⟩ => ⟨S5000x128, .f32⟩
  | .local _ .vmem, ⟨1, _⟩ => ⟨S5000x128, .f32⟩
  | .local _ .vmem, ⟨2, _⟩ => ⟨S5000x6, .f32⟩
  | .local _ .vmem, ⟨3, _⟩ => ⟨S5000x6, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S6x128, .f32⟩
  | .local _ .vmem, ⟨9, _⟩ => ⟨S128x64, .f32⟩
  | .local _ .vmem, ⟨10, _⟩ => ⟨S5000x128, .bf16⟩
  | .local _ .vmem, ⟨11, _⟩ => ⟨S5000x128, .bf16⟩
  | .local _ .vmem, ⟨12, _⟩ => ⟨S5000x64, .bf16⟩
  | .local _ .vmem, ⟨13, _⟩ => ⟨S5000x64, .bf16⟩
  | .local _ .vmem, ⟨14, _⟩ => ⟨S8000x42, .f32⟩
  | .local _ .vmem, ⟨15, _⟩ => ⟨S8000x42, .f32⟩
  | .local _ .vmem, ⟨16, _⟩ => ⟨S8000x64, .bf16⟩
  | .local _ .vmem, ⟨17, _⟩ => ⟨S8000x64, .bf16⟩
  | .local _ .vmem, ⟨18, _⟩ => ⟨S42x64, .f32⟩
  | .local _ .vmem, ⟨19, _⟩ => ⟨S8000x64, .bf16⟩
  | .local _ .vmem, ⟨20, _⟩ => ⟨S8000x64, .bf16⟩
  | .local _ .vmem, ⟨21, _⟩ => ⟨S4000x128, .f32⟩
  | .local _ .vmem, ⟨22, _⟩ => ⟨S4000x128, .f32⟩
  | .local _ .vmem, ⟨23, _⟩ => ⟨S4000x128, .bf16⟩
  | .local _ .vmem, ⟨24, _⟩ => ⟨S4000x128, .bf16⟩
  | .local _ .vmem, ⟨25, _⟩ => ⟨S4000x64, .f32⟩
  | .local _ .vmem, ⟨26, _⟩ => ⟨S4000x64, .f32⟩
  | .local _ .vmem, ⟨27, _⟩ => ⟨S64x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S128x128, .f32⟩
  | .local _ .vmem, ⟨41, _⟩ => ⟨S128, .f32⟩
  | .local _ .vmem, ⟨42, _⟩ => ⟨S4000x128, .f32⟩
  | .local _ .vmem, ⟨43, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2_0 : Ref sig .tc := ⟨.hbm, 31, rfl⟩
abbrev main_v2_1 : Ref sig .tc := ⟨.hbm, 32, rfl⟩
abbrev main_c : Ref sig .tc := ⟨.hbm, 33, rfl⟩
abbrev main_v3 : Ref sig .tc := ⟨.hbm, 34, rfl⟩
abbrev main_v4 : Ref sig .tc := ⟨.hbm, 35, rfl⟩
abbrev main_c_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg13_0 : Ref sig .tc := ⟨.vmem, 37, rfl⟩
abbrev cc2_stg14_0 : Ref sig .tc := ⟨.vmem, 38, rfl⟩
abbrev cc2_stg15_0 : Ref sig .tc := ⟨.vmem, 39, rfl⟩
abbrev cc2_stg16_0 : Ref sig .tc := ⟨.vmem, 40, rfl⟩
abbrev cc2_stg17_0 : Ref sig .tc := ⟨.vmem, 41, rfl⟩
abbrev cc2_stg18_0 : Ref sig .tc := ⟨.vmem, 42, rfl⟩
abbrev cc2_stg18_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem14_0 : DmaSem sig := 38
abbrev cc2_sem15_0 : DmaSem sig := 39
abbrev cc2_sem16_0 : DmaSem sig := 40
abbrev cc2_sem17_0 : DmaSem sig := 41
abbrev cc2_sem18_0 : DmaSem sig := 42
abbrev cc2_sem18_1 : DmaSem sig := 43

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S4000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x6_S5000x6_0_0 : ∀ a, (![0, 0] : Fin 2 → Nat) a + S5000x6.size a ≤ S5000x6.size a
  h_S5000x6 : 0 < S5000x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x64_S128x64_0_0 : ∀ a, (![0, 0] : Fin 2 → Nat) a + S128x64.size a ≤ S128x64.size a
  h_S128x64 : 0 < S128x64.numel
  packedbf16_S5000x128_S5000x128_0_0 : (Rect.unit (s := S5000x128) ![0, 0] S5000x128.size inb_S5000x128_S5000x128_0_0).PackedRows (EltTy.packing .bf16)
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S2000000 : S_.BroadcastsInDim S2000000 (![] : Fin 0 → Fin S2000000.rank)
  bcast_S2000000_S2000000x1_0 : S2000000.BroadcastsInDim S2000000x1 (![0] : Fin 1 → Fin S2000000x1.rank)
  inb_S8000x42_S8000x42_0_0 : ∀ a, (![0, 0] : Fin 2 → Nat) a + S8000x42.size a ≤ S8000x42.size a
  h_S8000x42 : 0 < S8000x42.numel
  inb_S42x64_S42x64_0_0 : ∀ a, (![0, 0] : Fin 2 → Nat) a + S42x64.size a ≤ S42x64.size a
  h_S42x64 : 0 < S42x64.numel
  shapeCasts_S42x64_S42x64 : S42x64.ShapeCasts S42x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  packedbf16_S8000x64_S8000x64_0_0 : (Rect.unit (s := S8000x64) ![0, 0] S8000x64.size inb_S8000x64_S8000x64_0_0).PackedRows (EltTy.packing .bf16)
  bcast_S_S200000x64 : S_.BroadcastsInDim S200000x64 (![] : Fin 0 → Fin S200000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  dot_S6x8_S8x128_S6x128_1_0_0_1_n_n_wf : DotDims.WF S6x8 S8x128 S6x128 [1] [0] [0] [1] [] []
  dot_S42x8_S8x64_S42x64_1_0_0_1_n_n_wf : DotDims.WF S42x8 S8x64 S42x64 [1] [0] [0] [1] [] []
  dot_S5000x128_S128x128_S5000x128_1_0_0_1_n_n_wf : DotDims.WF S5000x128 S128x128 S5000x128 [1] [0] [0] [1] [] []
  dot_S5000x6_S6x128_S5000x128_1_0_0_1_n_n_wf : DotDims.WF S5000x6 S6x128 S5000x128 [1] [0] [0] [1] [] []
  dot_S5000x128_S128x64_S5000x64_1_0_0_1_n_n_wf : DotDims.WF S5000x128 S128x64 S5000x64 [1] [0] [0] [1] [] []
  gather_S200000x64_S2000000x1_S2000000x64_1_0_n_n_0_1_164_wf : GatherDims.WF S200000x64 S2000000x1 S2000000x64 [1] [0] [] [0] [] 1 ![1, 64]
  dot_S8000x42_S42x64_S8000x64_1_0_0_1_n_n_wf : DotDims.WF S8000x42 S42x64 S8000x64 [1] [0] [0] [1] [] []
  scatter_S200000x64_S2000000x1_S2000000x64_1_0_0_1_wf : ScatterDims.WF S200000x64 S2000000x1 S2000000x64 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x6.size a ≤ S200000x6.size a
  hwx0_1 : ∀ i : grid0.Coords, EltTy.bits .f32 = 32 ∨ (Rect.block (s := S200000x6) S5000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x128.size a ≤ S6x128.size a
  hwx0_6 : ∀ i : grid0.Coords, EltTy.bits .f32 = 32 ∨ (Rect.block (s := S6x128) S6x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S200000x128.size a
  hwx0_8 : ∀ i : grid0.Coords, EltTy.bits .bf16 = 32 ∨ (Rect.block (s := S200000x128) S5000x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S200000x64.size a
  hwx0_9 : ∀ i : grid0.Coords, EltTy.bits .bf16 = 32 ∨ (Rect.block (s := S200000x64) S5000x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x42.size a ≤ S2000000x42.size a
  hwx1_0 : ∀ i : grid1.Coords, EltTy.bits .f32 = 32 ∨ (Rect.block (s := S2000000x42) S8000x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S2000000x64.size a
  hwx1_1 : ∀ i : grid1.Coords, EltTy.bits .bf16 = 32 ∨ (Rect.block (s := S2000000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x64.size a ≤ S42x64.size a
  hwx1_2 : ∀ i : grid1.Coords, EltTy.bits .f32 = 32 ∨ (Rect.block (s := S42x64) S42x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S2000000x64.size a
  hwx1_3 : ∀ i : grid1.Coords, EltTy.bits .bf16 = 32 ∨ (Rect.block (s := S2000000x64) S8000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .bf16 = 32 ∨ (Rect.block (s := S200000x128) S4000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S200000x64.size a
  hwx2_2 : ∀ i : grid2.Coords, EltTy.bits .f32 = 32 ∨ (Rect.block (s := S200000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128.size a ≤ S128.size a
  hwx2_13 : ∀ i : grid2.Coords, EltTy.bits .f32 = 32 ∨ (Rect.block (s := S128) S128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .f32 = 32 ∨ (Rect.block (s := S128x128) S128x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128.size a ≤ S128.size a
  hwx2_15 : ∀ i : grid2.Coords, EltTy.bits .f32 = 32 ∨ (Rect.block (s := S128) S128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128x128.size a ≤ S128x128.size a
  hwx2_16 : ∀ i : grid2.Coords, EltTy.bits .f32 = 32 ∨ (Rect.block (s := S128x128) S128x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128.size a ≤ S128.size a
  hwx2_17 : ∀ i : grid2.Coords, EltTy.bits .f32 = 32 ∨ (Rect.block (s := S128) S128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S4000x128.size a ≤ S200000x128.size a
  hwx2_18 : ∀ i : grid2.Coords, EltTy.bits .f32 = 32 ∨ (Rect.block (s := S200000x128) S4000x128.size (cc2_transform_18 i) (hinb2_18 i)).WholeWords (EltTy.packing .f32)

variable [Facts₀]

def dot_S6x8_S8x128_S6x128_1_0_0_1_n_n : DotDims S6x8 S8x128 S6x128 where
  lhsContracting := [1]
  rhsContracting := [0]
  lhsNonContracting := [0]
  rhsNonContracting := [1]
  lhsBatch := []
  rhsBatch := []
  wf := dot_S6x8_S8x128_S6x128_1_0_0_1_n_n_wf
def dot_S42x8_S8x64_S42x64_1_0_0_1_n_n : DotDims S42x8 S8x64 S42x64 where
  lhsContracting := [1]
  rhsContracting := [0]
  lhsNonContracting := [0]
  rhsNonContracting := [1]
  lhsBatch := []
  rhsBatch := []
  wf := dot_S42x8_S8x64_S42x64_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def dot_S8000x42_S42x64_S8000x64_1_0_0_1_n_n : DotDims S8000x42 S42x64 S8000x64 where
  lhsContracting := [1]
  rhsContracting := [0]
  lhsNonContracting := [0]
  rhsNonContracting := [1]
  lhsBatch := []
  rhsBatch := []
  wf := dot_S8000x42_S42x64_S8000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S6x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S8000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S42x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg20) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg21) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg22) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg23) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg24) S128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg25) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg26) S128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg27) S128x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg28) S128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v15) S4000x128.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S200000x128 : Shape := ⟨2, ![200000, 128]⟩
abbrev S200000x6 : Shape := ⟨2, ![200000, 6]⟩
abbrev S2000000x42 : Shape := ⟨2, ![2000000, 42]⟩
abbrev S2000000 : Shape := ⟨1, ![2000000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128 : Shape := ⟨2, ![1, 128]⟩
abbrev S_ : Shape := ⟨0, ![]⟩
abbrev S200000x8 : Shape := ⟨2, ![200000, 8]⟩
abbrev S200000x64 : Shape := ⟨2, ![200000, 64]⟩
abbrev S2000000x1 : Shape := ⟨2, ![2000000, 1]⟩
abbrev S2000000x64 : Shape := ⟨2, ![2000000, 64]⟩
abbrev S2000000x8 : Shape := ⟨2, ![2000000, 8]⟩

abbrev nBuf : Space → Nat
  | .hbm => 190
  | .vmem => 0
  | .smem => 0
  | _ => 0

abbrev hbmTy0_0 (i : Nat) : BufTy := match i % 128 with
  | 0 => ⟨S200000x128, .f32⟩
  | 1 => ⟨S200000x6, .f32⟩
  | 2 => ⟨S2000000x42, .f32⟩
  | 3 => ⟨S2000000, .i32⟩
  | 4 => ⟨S2000000, .i32⟩
  | 5 => ⟨S6x8, .f32⟩
  | 6 => ⟨S8x128, .f32⟩
  | 7 => ⟨S42x8, .f32⟩
  | 8 => ⟨S8x64, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64x128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128x128, .f32⟩
  | 28 => ⟨S128, .f32⟩
  | 29 => ⟨S200000x128, .f32⟩
  | 30 => ⟨S1x128, .f32⟩
  | 31 => ⟨S200000x128, .f32⟩
  | 32 => ⟨S200000x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S_, .f32⟩
  | 39 => ⟨S200000x128, .f32⟩
  | 40 => ⟨S200000x128, .f32⟩
  | 41 => ⟨S200000x128, .f32⟩
  | 42 => ⟨S200000x128, .f32⟩
  | 43 => ⟨S1x128, .f32⟩
  | 44 => ⟨S200000x128, .f32⟩
  | 45 => ⟨S200000x128, .f32⟩
  | 46 => ⟨S200000x128, .f32⟩
  | 47 => ⟨S200000x128, .f32⟩
  | 48 => ⟨S_, .f32⟩
  | 49 => ⟨S200000x128, .f32⟩
  | 50 => ⟨S200000x128, .f32⟩
  | 51 => ⟨S_, .f32⟩
  | 52 => ⟨S200000x128, .f32⟩
  | 53 => ⟨S200000x128, .f32⟩
  | 54 => ⟨S200000x128, .f32⟩
  | 55 => ⟨S200000x8, .f32⟩
  | 56 => ⟨S200000x128, .f32⟩
  | 57 => ⟨S200000x128, .f32⟩
  | 58 => ⟨S200000x64, .f32⟩
  | 59 => ⟨S200000x64, .f32⟩
  | 60 => ⟨S200000x64, .f32⟩
  | 61 => ⟨S_, .f32⟩
  | 62 => ⟨S200000x64, .f32⟩
  | 63 => ⟨S200000x64, .f32⟩
  | 64 => ⟨S_, .f32⟩
  | 65 => ⟨S200000x64, .f32⟩
  | 66 => ⟨S200000x64, .f32⟩
  | 67 => ⟨S200000x64, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x64, .f32⟩
  | 77 => ⟨S2000000x8, .f32⟩
  | 78 => ⟨S2000000x64, .f32⟩
  | 79 => ⟨S2000000x64, .f32⟩
  | 80 => ⟨S_, .f32⟩
  | 81 => ⟨S200000x64, .f32⟩
  | 82 => ⟨S2000000x1, .i32⟩
  | 83 => ⟨S200000x64, .f32⟩
  | 84 => ⟨S200000x128, .f32⟩
  | 85 => ⟨S200000x128, .f32⟩
  | 86 => ⟨S200000x128, .f32⟩
  | 87 => ⟨S_, .f32⟩
  | 88 => ⟨S200000x128, .f32⟩
  | 89 => ⟨S200000x128, .f32⟩
  | 90 => ⟨S_, .f32⟩
  | 91 => ⟨S200000x128, .f32⟩
  | 92 => ⟨S200000x128, .f32⟩
  | 93 => ⟨S200000x128, .f32⟩
  | 94 => ⟨S200000x128, .f32⟩
  | 95 => ⟨S200000x128, .f32⟩
  | 96 => ⟨S1x128, .f32⟩
  | 97 => ⟨S200000x128, .f32⟩
  | 98 => ⟨S200000x128, .f32⟩
  | 99 => ⟨S200000x128, .f32⟩
  | 100 => ⟨S200000x128, .f32⟩
  | 101 => ⟨S_, .f32⟩
  | 102 => ⟨S200000x128, .f32⟩
  | 103 => ⟨S200000x128, .f32⟩
  | 104 => ⟨S_, .f32⟩
  | 105 => ⟨S200000x128, .f32⟩
  | 106 => ⟨S200000x128, .f32⟩
  | 107 => ⟨S200000x128, .f32⟩
  | 108 => ⟨S200000x128, .f32⟩
  | 109 => ⟨S1x128, .f32⟩
  | 110 => ⟨S200000x128, .f32⟩
  | 111 => ⟨S200000x128, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S200000x128, .f32⟩
  | 121 => ⟨S200000x128, .f32⟩
  | 122 => ⟨S200000x128, .f32⟩
  | 123 => ⟨S1x128, .f32⟩
  | 124 => ⟨S200000x128, .f32⟩
  | 125 => ⟨S200000x128, .f32⟩
  | 126 => ⟨S200000x128, .f32⟩
  | 127 => ⟨S200000x128, .f32⟩
  | _ => ⟨S200000x128, .f32⟩

abbrev hbmTy0_1 (i : Nat) : BufTy := match i % 128 with
  | 0 => ⟨S_, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S200000x128, .f32⟩
  | 7 => ⟨S200000x128, .f32⟩
  | 8 => ⟨S200000x128, .f32⟩
  | 9 => ⟨S1x128, .f32⟩
  | 10 => ⟨S200000x128, .f32⟩
  | 11 => ⟨S200000x128, .f32⟩
  | 12 => ⟨S200000x128, .f32⟩
  | 13 => ⟨S200000x128, .f32⟩
  | 14 => ⟨S_, .f32⟩
  | 15 => ⟨S200000x128, .f32⟩
  | 16 => ⟨S200000x128, .f32⟩
  | 17 => ⟨S_, .f32⟩
  | 18 => ⟨S200000x128, .f32⟩
  | 19 => ⟨S200000x128, .f32⟩
  | 20 => ⟨S200000x128, .f32⟩
  | 21 => ⟨S200000x128, .f32⟩
  | 22 => ⟨S1x128, .f32⟩
  | 23 => ⟨S200000x128, .f32⟩
  | 24 => ⟨S200000x128, .f32⟩
  | 25 => ⟨S200000x128, .f32⟩
  | 26 => ⟨S200000x128, .f32⟩
  | 27 => ⟨S_, .f32⟩
  | 28 => ⟨S200000x128, .f32⟩
  | 29 => ⟨S200000x128, .f32⟩
  | 30 => ⟨S_, .f32⟩
  | 31 => ⟨S200000x128, .f32⟩
  | 32 => ⟨S200000x128, .f32⟩
  | 33 => ⟨S200000x128, .f32⟩
  | 34 => ⟨S200000x128, .f32⟩
  | 35 => ⟨S200000x128, .f32⟩
  | 36 => ⟨S1x128, .f32⟩
  | 37 => ⟨S200000x128, .f32⟩
  | 38 => ⟨S200000x128, .f32⟩
  | 39 => ⟨S200000x128, .f32⟩
  | 40 => ⟨S200000x128, .f32⟩
  | 41 => ⟨S_, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S200000x128, .f32⟩
  | 48 => ⟨S200000x128, .f32⟩
  | 49 => ⟨S1x128, .f32⟩
  | 50 => ⟨S200000x128, .f32⟩
  | 51 => ⟨S200000x128, .f32⟩
  | 52 => ⟨S200000x128, .f32⟩
  | 53 => ⟨S200000x128, .f32⟩
  | 54 => ⟨S_, .f32⟩
  | 55 => ⟨S200000x128, .f32⟩
  | 56 => ⟨S200000x128, .f32⟩
  | 57 => ⟨S_, .f32⟩
  | 58 => ⟨S200000x128, .f32⟩
  | 59 => ⟨S200000x128, .f32⟩
  | 60 => ⟨S200000x128, .f32⟩
  | 61 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v14 : Ref sig .tc := ⟨.hbm, 67, rfl⟩
abbrev main_c : Ref sig .tc := ⟨.hbm, 68, rfl⟩
abbrev main_v15 : Ref sig .tc := ⟨.hbm, 69, rfl⟩
abbrev main_v16 : Ref sig .tc := ⟨.hbm, 70, rfl⟩
abbrev main_c_0 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_call8_v0 : Ref sig .tc := ⟨.hbm, 153, rfl⟩
abbrev main_call8_v1 : Ref sig .tc := ⟨.hbm, 154, rfl⟩
abbrev main_call8_cst : Ref sig .tc := ⟨.hbm, 155, rfl⟩
abbrev main_call8_v2 : Ref sig .tc := ⟨.hbm, 156, rfl⟩
abbrev main_call8_v3 : Ref sig .tc := ⟨.hbm, 157, rfl⟩
abbrev main_call8_cst_0 : Ref sig .tc := ⟨.hbm, 158, rfl⟩
abbrev main_call8_v4 : Ref sig .tc := ⟨.hbm, 159, rfl⟩
abbrev main_call8_v5 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_call9_v0 : Ref sig .tc := ⟨.hbm, 167, rfl⟩
abbrev main_call9_v1 : Ref sig .tc := ⟨.hbm, 168, rfl⟩
abbrev main_call9_cst : Ref sig .tc := ⟨.hbm, 169, rfl⟩
abbrev main_call9_v2 : Ref sig .tc := ⟨.hbm, 170, rfl⟩
abbrev main_call9_v3 : Ref sig .tc := ⟨.hbm, 171, rfl⟩
abbrev main_call9_cst_0 : Ref sig .tc := ⟨.hbm, 172, rfl⟩
abbrev main_call9_v4 : Ref sig .tc := ⟨.hbm, 173, rfl⟩
abbrev main_call9_v5 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_call10_v0 : Ref sig .tc := ⟨.hbm, 180, rfl⟩
abbrev main_call10_v1 : Ref sig .tc := ⟨.hbm, 181, rfl⟩
abbrev main_call10_cst : Ref sig .tc := ⟨.hbm, 182, rfl⟩
abbrev main_call10_v2 : Ref sig .tc := ⟨.hbm, 183, rfl⟩
abbrev main_call10_v3 : Ref sig .tc := ⟨.hbm, 184, rfl⟩
abbrev main_call10_cst_0 : Ref sig .tc := ⟨.hbm, 185, rfl⟩
abbrev main_call10_v4 : Ref sig .tc := ⟨.hbm, 186, rfl⟩
abbrev main_call10_v5 : Ref sig .tc := ⟨.hbm, 187, rfl⟩
abbrev main_v68 : Ref sig .tc := ⟨.hbm, 188, rfl⟩
abbrev main_v69 : Ref sig .tc := ⟨.hbm, 189, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000x64 : S_.BroadcastsInDim S200000x64 (![] : Fin 0 → Fin S200000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  dot_S200000x128_S128x128_S200000x128_1_0_0_1_n_n_wf : DotDims.WF S200000x128 S128x128 S200000x128 [1] [0] [0] [1] [] []
  dot_S200000x6_S6x8_S200000x8_1_0_0_1_n_n_wf : DotDims.WF S200000x6 S6x8 S200000x8 [1] [0] [0] [1] [] []
  dot_S200000x8_S8x128_S200000x128_1_0_0_1_n_n_wf : DotDims.WF S200000x8 S8x128 S200000x128 [1] [0] [0] [1] [] []
  dot_S200000x128_S128x64_S200000x64_1_0_0_1_n_n_wf : DotDims.WF S200000x128 S128x64 S200000x64 [1] [0] [0] [1] [] []
  gather_S200000x64_S2000000x1_S2000000x64_1_0_n_n_0_1_164_wf : GatherDims.WF S200000x64 S2000000x1 S2000000x64 [1] [0] [] [0] [] 1 ![1, 64]
  dot_S2000000x42_S42x8_S2000000x8_1_0_0_1_n_n_wf : DotDims.WF S2000000x42 S42x8 S2000000x8 [1] [0] [0] [1] [] []
  dot_S2000000x8_S8x64_S2000000x64_1_0_0_1_n_n_wf : DotDims.WF S2000000x8 S8x64 S2000000x64 [1] [0] [0] [1] [] []
  scatter_S200000x64_S2000000x1_S2000000x64_1_0_0_1_wf : ScatterDims.WF S200000x64 S2000000x1 S2000000x64 [1] [0] [0] 1
  dot_S200000x64_S64x128_S200000x128_1_0_0_1_n_n_wf : DotDims.WF S200000x64 S64x128 S200000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x6_S6x8_S200000x8_1_0_0_1_n_n : DotDims S200000x6 S6x8 S200000x8 where
  lhsContracting := [1]
  rhsContracting := [0]
  lhsNonContracting := [0]
  rhsNonContracting := [1]
  lhsBatch := []
  rhsBatch := []
  wf := dot_S200000x6_S6x8_S200000x8_1_0_0_1_n_n_wf
def dot_S200000x8_S8x128_S200000x128_1_0_0_1_n_n : DotDims S200000x8 S8x128 S200000x128 where
  lhsContracting := [1]
  rhsContracting := [0]
  lhsNonContracting := [0]
  rhsNonContracting := [1]
  lhsBatch := []
  rhsBatch := []
  wf := dot_S200000x8_S8x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def dot_S2000000x42_S42x8_S2000000x8_1_0_0_1_n_n : DotDims S2000000x42 S42x8 S2000000x8 where
  lhsContracting := [1]
  rhsContracting := [0]
  lhsNonContracting := [0]
  rhsNonContracting := [1]
  lhsBatch := []
  rhsBatch := []
  wf := dot_S2000000x42_S42x8_S2000000x8_1_0_0_1_n_n_wf
def dot_S2000000x8_S8x64_S2000000x64_1_0_0_1_n_n : DotDims S2000000x8 S8x64 S2000000x64 where
  lhsContracting := [1]
  rhsContracting := [0]
  lhsNonContracting := [0]
  rhsNonContracting := [1]
  lhsBatch := []
  rhsBatch := []
  wf := dot_S2000000x8_S8x64_S2000000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf

class Facts : Prop extends Facts₀ where

variable [Facts]
-- ==== Proof.KernelRun.lean ====
/-
  The idealized kernel's run with its result kept.

  The program is three grids of blocks among stretches of host operations. Every weakly fair execution from a memory
  with zero counters terminates, faults nowhere, and ends with every unscoped buffer of a core at the contents the
  fold through the six segments gives it (W6): in particular the result buffer, and each argument at what it held at
  the launch.
-/
import proofs.«114219_j23149873725723_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read out of the last thread state beside the arguments. -/
theorem run_named : θ_run defs (onTc (τ := τ) (main (F := F))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c),
       (h c _ (mem_uc main_arg26 (by decide))).trans (W6_main_arg26 m ρ c),
       (h c _ (mem_uc main_arg27 (by decide))).trans (W6_main_arg27 m ρ c),
       (h c _ (mem_uc main_arg28 (by decide))).trans (W6_main_arg28 m ρ c)⟩)

end Cert.KernelIdeal.Named

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«114219_j23149873725723_2_alg».proof.Proof.LibPlainMatmul
import proofs.«114219_j23149873725723_2_alg».proof.Proof.LibHostReads
import proofs.«114219_j23149873725723_2_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«114219_j23149873725723_2_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibBiasRows.lean ====
/-
  A bias row on picked rows.

  A vector of N numbers is laid as one row and broadcast down the TM rows of a block; the host lays the same vector as
  one row and broadcasts it down all M rows of a matrix. Every row of either is the vector itself, so the block's
  bias is any TM picked rows of the host's.
-/
import Idealize.ShloMosaic.Lib.Pipeline.Value
import Idealize.ShloMosaic.Lib.ValueIdx
import Idealize.ShloMosaic.Lib.ValueLayout
import proofs.«114219_j23149873725723_2_alg».proof.Proof.LibBlockRows

noncomputable section

namespace Cert.BiasRows

open Idealize.ShloMosaic Idealize.ShloMosaic.ValueIdx Cert.BlockRows

variable {TM M N : Nat}

/-- The host's bias matrix of a vector: the vector laid as one row, the row broadcast down M rows. -/
def bias {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α) :
    (⟨2, ![M, N]⟩ : Shape).Idx → α :=
  broadcastInDim ⟨2, ![M, N]⟩ ![0, 1] h2 (broadcastInDim ⟨2, ![1, N]⟩ ![1] h1 v)

/-- Entry (r, c) of the bias matrix is entry c of the vector. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (c : Fin N) : bias h1 h2 v (ix2 r c) = v (ix1 c) := by
  unfold bias
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- The vector reshaped to one row and broadcast down a block of TM rows is any TM picked rows of the host's bias
    matrix. -/
theorem bias_rows {α : Type} (ρ : Fin TM → Fin M) (v : (⟨1, ![N]⟩ : Shape).Idx → α)
    (hs : (⟨1, ![N]⟩ : Shape).ShapeCasts ⟨2, ![1, N]⟩) (hb : (⟨2, ![1, N]⟩ : Shape).Broadcasts ⟨2, ![TM, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    broadcastTo ⟨2, ![TM, N]⟩ (shapeCast ⟨2, ![1, N]⟩ v hs) hb = rowsOf ρ (bias h1 h2 v) := by
  rw [reshape_row v hs h1]
  funext j
  obtain ⟨p, c, rfl⟩ : ∃ (p : Fin TM) (c : Fin N), j = ix2 p c := ⟨j 0, j 1, eq_ix2 j⟩
  rw [broadcastTo_1b_ab_apply, rowsOf_apply, bias_apply]
  refine broadcastInDim_apply _ h1 v (ix2 (0 : Fin 1) c) (ix1 c) fun a => ?_
  match a with
  | ⟨0, _⟩ =>
    show c.val = if N = 1 then 0 else c.val
    split
    · have := c.isLt; omega
    · rfl

end Cert.BiasRows

end
-- ==== Proof.LibSwishLayers.lean ====
/-
  Swish layers of a dense network, on whole arrays and on picked rows.

  swish y = y · 1/(1 + e^(-y)), entry by entry, on the extended reals. A dense layer with a bias vector followed by
  swish acts on every row of its input separately: computed on rows ρ 0, ρ 1, … of a tall matrix it gives the same
  rows of the layer computed on the whole matrix. The vector unit spells swish as y times its logistic; the host as
  y times 1 / (1 + exp (−y)) with the ones broadcast from rank zero: one function.
-/
import Idealize.ShloMosaic.PureOps.Ideal.Laws
import Idealize.ShloMosaic.Lib.Pipeline.Value
import Idealize.ShloMosaic.Lib.ValueIdx
import Idealize.ShloMosaic.Lib.ValueLayout
import proofs.«114219_j23149873725723_2_alg».proof.Proof.LibBlockRows
import proofs.«114219_j23149873725723_2_alg».proof.Proof.LibRowLayers
import proofs.«114219_j23149873725723_2_alg».proof.Proof.LibBiasRows

noncomputable section

namespace Cert.Swish

open Idealize.ShloMosaic Idealize.ShloMosaic.ValueIdx Cert.BlockRows Cert.RowLayers Cert.BiasRows

variable {TM M K N : Nat}

/-- swish, entry by entry: y times the logistic of y. -/
def swish {s : Shape} (Y : FVec Ideal s .f32) : FVec Ideal s .f32 := fun i => Y i * Ideal.logistic (Y i)

/-- The vector unit's spelling: y times tpu.logistic y. -/
theorem swish_vector {s : Shape} (y : FVec Ideal s .f32) : mulf y (logistic y) = swish y := rfl

/-- The f32 word of 1.0 is the number one. -/
theorem one_f32 : Ideal.ofBits .f32 0x3F800000#32 = 1 := by
  simp [Ideal.ofBits, Ideal.ieee, -EReal.coe_mul]; norm_num

/-- The host's spelling: y times 1 / (1 + exp (−y)), each one a rank-zero constant broadcast to the array. -/
theorem swish_host {s : Shape} (h h' : (⟨0, ![]⟩ : Shape).BroadcastsInDim s ![]) (Y : FVec Ideal s .f32) :
    mulf Y (Host.divf (broadcastInDim s ![] h (constant (F := Ideal) ⟨0, ![]⟩ .f32 0x3F800000#32))
        (addf (broadcastInDim s ![] h' (constant (F := Ideal) ⟨0, ![]⟩ .f32 0x3F800000#32)) (Host.exp (Host.negf Y))))
      = swish Y := by
  funext i
  show Y i * Ideal.div (broadcastInDim s ![] h (constant (F := Ideal) ⟨0, ![]⟩ .f32 0x3F800000#32) i)
      (broadcastInDim s ![] h' (constant (F := Ideal) ⟨0, ![]⟩ .f32 0x3F800000#32) i + Ideal.exp (-(Y i)))
    = Y i * Ideal.div 1 (1 + Ideal.exp (-(Y i)))
  show Y i * Ideal.div (Ideal.ofBits .f32 0x3F800000#32) (Ideal.ofBits .f32 0x3F800000#32 + Ideal.exp (-(Y i))) = _
  rw [one_f32]

/-- swish of picked rows is the picked rows of swish. -/
theorem swish_rows (ρ : Fin TM → Fin M) (Y : FVec Ideal ⟨2, ![M, N]⟩ .f32) : swish (rowsOf ρ Y) = rowsOf ρ (swish Y) := rfl

/-- The vector unit's swish of an operand that IS picked rows of Y is the picked rows of swish Y. -/
theorem swish_of_rows (ρ : Fin TM → Fin M) (y : FVec Ideal ⟨2, ![TM, N]⟩ .f32) (Y : FVec Ideal ⟨2, ![M, N]⟩ .f32)
    (hy : y = rowsOf ρ Y) : mulf y (logistic y) = rowsOf ρ (swish Y) := by
  subst hy; rfl

/-- An entry-by-entry product of two operands that are picked rows is the picked rows of the product. -/
theorem mulf_of_rows (ρ : Fin TM → Fin M) (y z : FVec Ideal ⟨2, ![TM, N]⟩ .f32) (Y Z : FVec Ideal ⟨2, ![M, N]⟩ .f32)
    (hy : y = rowsOf ρ Y) (hz : z = rowsOf ρ Z) : mulf y z = rowsOf ρ (mulf Y Z) := by
  subst hy hz; rfl

/-- A dense layer with a bias vector followed by swish, on a whole matrix: swish (X · W + b). -/
def layer (h1 : (⟨1, ![N]⟩ : Shape).BroadcastsInDim ⟨2, ![1, N]⟩ ![1])
    (h2 : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨1, ![N]⟩ .f32) :
    FVec Ideal ⟨2, ![M, N]⟩ .f32 :=
  swish (addf (propagate X W) (bias h1 h2 b))

/-- The layer on a block: the matrix unit's product into zeros of a left operand that IS picked rows of X and a right
    operand that IS W (in any float formats), plus the bias vector laid as a row and broadcast down the block, then
    swish, is the picked rows of the layer on the whole matrix. -/
theorem layer_of_rows (ρ : Fin TM → Fin M) {φ₁ φ₂ : FTy} (a : FVec Ideal ⟨2, ![TM, K]⟩ φ₁) (g : FVec Ideal ⟨2, ![K, N]⟩ φ₂)
    (X : FVec Ideal ⟨2, ![M, K]⟩ .f32) (W : FVec Ideal ⟨2, ![K, N]⟩ .f32)
    (ha : (a : (⟨2, ![TM, K]⟩ : Shape).Idx → EReal) = rowsOf ρ X) (hg : (g : (⟨2, ![K, N]⟩ : Shape).Idx → EReal) = W)
    (b : FVec Ideal ⟨1, ![N]⟩ .f32)
    (hs : (⟨1, ![N]⟩ : Shape).ShapeCasts ⟨2, ![1, N]⟩) (hb : (⟨2, ![1, N]⟩ : Shape).Broadcasts ⟨2, ![TM, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (v : FVec Ideal ⟨2, ![TM, N]⟩ .f32)
    (hv : v = addf (matmul (DotDims.plain TM K N) none a g (constant ⟨2, ![TM, N]⟩ .f32 0x00000000#32))
        (broadcastTo ⟨2, ![TM, N]⟩ (shapeCast ⟨2, ![1, N]⟩ b hs) hb)) :
    mulf v (logistic v) = rowsOf ρ (layer h1 h2 X W b) := by
  refine swish_of_rows ρ v _ ?_
  rw [hv, matmul_of_rows ρ a g X W ha hg, bias_rows ρ b hs hb h1 h2, addf_rows]

end Cert.Swish

end
-- ==== Proof.Net.lean ====
/-
  One interaction block of a directional message-passing network, as whole-array functions on the extended reals.

  E = 200000 edges carry 128 features, T = 2000000 triplets (pairs of edges) carry 64. With swish layers
  (Cert.Swish.layer: swish (X · W + b)):

    x_ji  = layer x W_ji b_ji                                               messages kept on each edge
    down  = swish ((layer x W_kj b_kj ⊙ Rm) · W_down)                        messages to pass on, Rm the radial factor
    msg   = rows of down picked by the triplet's first edge, ⊙ Sm             Sm the angular factor
    sum   = for every edge, the sum of msg over the triplets whose second edge it is
    tail  = x_ji + swish (sum · W_up), one residual pair of layers, a layer, the skip x + ·, two more residual pairs

  The two basis factors Rm, Sm are parameters: a product of three matrices A · (B · C) or (A · B) · C.
  The picking of rows (a gather by index words, negative words wrapped by the table's length) and the sum per edge
  (an accumulating scatter into zeros) are the host's operations, kept as they are spelled.
-/
import proofs.«114219_j23149873725723_2_alg».proof.Proof.LibSwishLayers

noncomputable section

namespace Cert.Net

open Idealize.ShloMosaic Cert.BlockRows Cert.BiasRows Cert.Swish

/-- An a × b matrix's shape, a vector's, rank zero. -/
abbrev Mat (a b : Nat) : Shape := ⟨2, ![a, b]⟩
abbrev Row (n : Nat) : Shape := ⟨1, ![n]⟩
abbrev Sc : Shape := ⟨0, ![]⟩

/-- The number of edges and of triplets. -/
abbrev E : Nat := 200000
abbrev T : Nat := 2000000

/-- Matrices and vectors of extended reals. -/
abbrev R (a b : Nat) : Type := FVec Ideal (Mat a b) .f32
abbrev V (n : Nat) : Type := FVec Ideal (Row n) .f32

theorem hrow : (Row 128).BroadcastsInDim (Mat 1 128) ![1] := by decide
theorem hdown : (Mat 1 128).BroadcastsInDim (Mat E 128) ![0, 1] := by decide
theorem hcol : (Row T).BroadcastsInDim (Mat T 1) ![0] := by decide
theorem hsplat : Sc.BroadcastsInDim (Row T) ![] := by decide
theorem hzero : Sc.BroadcastsInDim (Mat E 64) ![] := by decide

/-- A swish layer on all E edges, 128 features to 128. -/
def dense (X : R E 128) (W : R 128 128) (b : V 128) : R E 128 := layer hrow hdown X W b

/-- Two layers and the input added back. -/
def resid (X : R E 128) (W1 : R 128 128) (b1 : V 128) (W2 : R 128 128) (b2 : V 128) : R E 128 :=
  addf X (dense (dense X W1 b1) W2 b2)

/-- The messages to pass on: the second layer's output times the radial factor, projected down to 64 features. -/
def down (X : R E 128) (Wkj : R 128 128) (bkj : V 128) (Rm : R E 128) (Wdown : R 128 64) : R E 64 :=
  swish (propagate (mulf (dense X Wkj bkj) Rm) Wdown)

/-- The gather's dimension numbers: whole rows of 64 picked by one start index each. -/
def gatherDims : GatherDims (Mat E 64) (Mat T 1) (Mat T 64) where
  offsetDims := [1]
  collapsedSliceDims := [0]
  operandBatchingDims := []
  startIndicesBatchingDims := []
  startIndexMap := [0]
  indexVectorDim := 1
  sliceSizes := ![1, 64]
  wf := by decide

/-- The scatter's dimension numbers: whole rows of 64 added at one row index each. -/
def scatterDims : ScatterDims (Mat E 64) (Mat T 1) (Mat T 64) where
  updateWindowDims := [1]
  insertedWindowDims := [0]
  scatterDimsToOperandDims := [0]
  indexVectorDim := 1
  wf := by decide

/-- The start indices of the gather: a negative word has the table's length E added, then the words are laid as a column. -/
def startIdx (a : IVec (Row T) 32) : IVec (Mat T 1) 32 :=
  broadcastInDim (Mat T 1) ![0] hcol
    (select (cmpi .slt a (broadcastInDim (Row T) ![] hsplat (constantI Sc 32 0#32)))
      (addi a (broadcastInDim (Row T) ![] hsplat (constantI Sc 32 200000#32))) a)

/-- Row t of the result is the table's row at triplet t's first edge. -/
def gathered (Tbl : (Mat E 64).Idx → EReal) (a : IVec (Row T) 32) : (Mat T 64).Idx → EReal :=
  Host.gather gatherDims Tbl (startIdx a)

/-- For every edge, the sum of the rows of U over the triplets whose index word names it. -/
def segSum (a : IVec (Row T) 32) (U : R T 64) : R E 64 :=
  Host.scatterAdd scatterDims (broadcastInDim (Mat E 64) ![] hzero (constant (F := Ideal) Sc .f32 0x00000000#32))
    (broadcastInDim (Mat T 1) ![0] hcol a) U

/-- Everything after the sum per edge. -/
def tail (X Xji : R E 128) (Xsum : R E 64) (Wup : R 64 128)
    (Wb1 : R 128 128) (bb1 : V 128) (Wb2 : R 128 128) (bb2 : V 128) (Wfin : R 128 128) (bfin : V 128)
    (Wa11 : R 128 128) (ba11 : V 128) (Wa12 : R 128 128) (ba12 : V 128)
    (Wa21 : R 128 128) (ba21 : V 128) (Wa22 : R 128 128) (ba22 : V 128) : R E 128 :=
  resid (resid (addf X (dense (resid (addf Xji (swish (propagate Xsum Wup))) Wb1 bb1 Wb2 bb2) Wfin bfin))
    Wa11 ba11 Wa12 ba12) Wa21 ba21 Wa22 ba22

/-- The whole block, the radial factor Rm and the angular factor Sm given. -/
def net (Rm : R E 128) (Sm : R T 64) (x : R E 128) (a3 a4 : IVec (Row T) 32)
    (Wji : R 128 128) (bji : V 128) (Wkj : R 128 128) (bkj : V 128) (Wdown : R 128 64) (Wup : R 64 128)
    (Wb1 : R 128 128) (bb1 : V 128) (Wb2 : R 128 128) (bb2 : V 128) (Wfin : R 128 128) (bfin : V 128)
    (Wa11 : R 128 128) (ba11 : V 128) (Wa12 : R 128 128) (ba12 : V 128)
    (Wa21 : R 128 128) (ba21 : V 128) (Wa22 : R 128 128) (ba22 : V 128) : R E 128 :=
  tail x (dense x Wji bji) (segSum a4 (mulf (gathered (down x Wkj bkj Rm Wdown) a3) Sm)) Wup
    Wb1 bb1 Wb2 bb2 Wfin bfin Wa11 ba11 Wa12 ba12 Wa21 ba21 Wa22 ba22

/-- A basis factor with the two small tables multiplied first: A · (B · C). -/
def basisFolded {M a b n : Nat} (A : R M a) (B : R a b) (C : R b n) : R M n := propagate A (propagate B C)

/-- A basis factor multiplied left to right: (A · B) · C. -/
def basisChained {M a b n : Nat} (A : R M a) (B : R a b) (C : R b n) : R M n := propagate (propagate A B) C

end Cert.Net

end
-- ==== Proof.Region0.lean ====
/-
  The first grid: 40 blocks of 5000 edges.

  Point t of the grid reads rows 5000 t, …, 5000 t + 4999 of the edge features X and of the radial basis Rb, and the
  whole of two weight matrices with their bias vectors, the folded radial table and the down-projection. It writes
  the same rows of two arrays: of  swish (X · W_ji + b_ji),  and of  swish (((swish (X · W_kj + b_kj)) ⊙ (Rb · table)) · W_down).
  A product with a fixed right factor, a bias added to every row, swish and an entry-by-entry product all act on each
  row separately, so each block written is block t of the one whole-array expression; the 40 blocks tile the 200000
  rows (row r lies in block r / 5000), so those expressions are what the two arrays hold after the grid.
-/
import proofs.«114219_j23149873725723_2_alg».proof.Proof.Gen.KernelIdeal.Frame
import proofs.«114219_j23149873725723_2_alg».proof.Proof.Gen.KernelIdeal.Points
import proofs.«114219_j23149873725723_2_alg».proof.Proof.Net

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.BlockRows Cert.RowLayers Cert.BiasRows Cert.Swish

variable (V : (c : Dev nD) → (b : Ref sig .tc) → Buf (Elt Ideal) ((c : Thread nD τ).loc b))

namespace Region0

/-- The all-zero offsets of a whole-block access, as a constant function, for a matrix and for a vector. -/
theorem hz0 : (![0, 0] : Fin 2 → Nat) = fun _ => 0 := funext fun a => by fin_cases a <;> rfl
theorem hz0v : (![0] : Fin 1 → Nat) = fun _ => 0 := funext fun a => by fin_cases a <;> rfl

/-- Rows 5000 t, …, 5000 t + 4999 of the edge arrays: the rows of block t. -/
def rho0 (t : Fin cfg0.N) : Fin 5000 → Fin 200000 := blockRow 5000 40 200000 (by norm_num) t

/-! The index maps over the 40 points: a row-blocked window sits at block t, column block 0; a weight's, a bias's
    or the table's window stays at the origin. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 1) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-- The kept messages on rows: with the feature block rows ρ of X, the stored block is rows ρ of swish (X · W + b). -/
theorem pay2_of_rows (ρ : Fin 5000 → Fin 200000)
    (x0 : FVec Ideal ⟨2, ![5000, 128]⟩ .f32) (x2 : FVec Ideal ⟨2, ![128, 128]⟩ .f32) (x3 : FVec Ideal ⟨1, ![128]⟩ .f32)
    (X : FVec Ideal ⟨2, ![200000, 128]⟩ .f32) (W : FVec Ideal ⟨2, ![128, 128]⟩ .f32) (b : FVec Ideal ⟨1, ![128]⟩ .f32)
    (h0 : x0 = rowsOf ρ X) (h2 : x2 = W) (h3 : x3 = b) :
    (k0_pay2 (F := Ideal) x0 x2 x3 : (⟨2, ![5000, 128]⟩ : Shape).Idx → EReal) = rowsOf ρ (Cert.Net.dense X W b) := by
  subst h3
  unfold k0_pay2 k0_pay1
  exact layer_of_rows ρ (truncf .bf16 x0 bitsLt_bf16_f32) (truncf .bf16 x2 bitsLt_bf16_f32) X W h0 h2 x3
    shapeCasts_S128_S1x128 broadcasts_S1x128_S5000x128 Cert.Net.hrow Cert.Net.hdown _ rfl

/-- The passed-on messages on rows: with the feature block rows ρ of X and the radial-basis block rows ρ of Rb, the
    stored block is rows ρ of swish (((swish (X · W + b)) ⊙ (Rb · T)) · Wd). -/
theorem pay3_of_rows (ρ : Fin 5000 → Fin 200000)
    (x0 : FVec Ideal ⟨2, ![5000, 128]⟩ .f32) (x4 : FVec Ideal ⟨2, ![128, 128]⟩ .f32) (x5 : FVec Ideal ⟨1, ![128]⟩ .f32)
    (x1 : FVec Ideal ⟨2, ![5000, 6]⟩ .f32) (x6 : FVec Ideal ⟨2, ![6, 128]⟩ .f32) (x7 : FVec Ideal ⟨2, ![128, 64]⟩ .f32)
    (X : FVec Ideal ⟨2, ![200000, 128]⟩ .f32) (W : FVec Ideal ⟨2, ![128, 128]⟩ .f32) (b : FVec Ideal ⟨1, ![128]⟩ .f32)
    (Rb : FVec Ideal ⟨2, ![200000, 6]⟩ .f32) (Tb : FVec Ideal ⟨2, ![6, 128]⟩ .f32) (Wd : FVec Ideal ⟨2, ![128, 64]⟩ .f32)
    (h0 : x0 = rowsOf ρ X) (h4 : x4 = W) (h5 : x5 = b) (h1 : x1 = rowsOf ρ Rb) (h6 : x6 = Tb) (h7 : x7 = Wd) :
    (k0_pay3 (F := Ideal) x0 x4 x5 x1 x6 x7 : (⟨2, ![5000, 64]⟩ : Shape).Idx → EReal)
      = rowsOf ρ (Cert.Net.down X W b (propagate Rb Tb) Wd) := by
  subst h5
  have hl := layer_of_rows ρ (truncf .bf16 x0 bitsLt_bf16_f32) (truncf .bf16 x4 bitsLt_bf16_f32) X W h0 h4 x5
    shapeCasts_S128_S1x128 broadcasts_S1x128_S5000x128 Cert.Net.hrow Cert.Net.hdown _ rfl
  have hr := matmul_of_rows ρ (truncf .bf16 x1 bitsLt_bf16_f32)
    (truncf .bf16 (shapeCast S6x128 x6 shapeCasts_S6x128_S6x128) bitsLt_bf16_f32) Rb Tb h1
    (by rw [shapeCast_self]; exact h6)
  have hm := mulf_of_rows ρ _ _ _ _ hl hr
  have hd := matmul_of_rows ρ (φ₁ := .bf16) (φ₂ := .bf16) _ (truncf .bf16 x7 bitsLt_bf16_f32) _ Wd hm h7
  unfold k0_pay3 k0_pay1
  exact swish_of_rows ρ _ _ hd

theorem iblk0_0_rows (c : Dev nD) (t : Fin cfg0.N) :
    iblk0 (F := Ideal) V c 0 t = rowsOf (rho0 t) (V c main_arg0) := by
  obtain ⟨e0, e1⟩ := idx0_0 t
  funext j
  unfold iblk0
  rw [View.read_apply]
  show V c main_arg0 _ = V c main_arg0 _
  congr 1
  funext a
  apply Fin.ext
  match a with
  | ⟨0, _⟩ => show win0_0.index t (0 : Fin 2) * 5000 + 1 * (j 0).val = 5000 * t.val + (j 0).val; rw [e0]; omega
  | ⟨1, _⟩ => show win0_0.index t (1 : Fin 2) * 128 + 1 * (j 1).val = (j 1).val; rw [e1]; omega

theorem iblk0_1_rows (c : Dev nD) (t : Fin cfg0.N) :
    iblk0 (F := Ideal) V c 1 t = rowsOf (rho0 t) (V c main_arg1) := by
  obtain ⟨e0, e1⟩ := idx0_1 t
  funext j
  unfold iblk0
  rw [View.read_apply]
  show V c main_arg1 _ = V c main_arg1 _
  congr 1
  funext a
  apply Fin.ext
  match a with
  | ⟨0, _⟩ => show win0_1.index t (0 : Fin 2) * 5000 + 1 * (j 0).val = 5000 * t.val + (j 0).val; rw [e0]; omega
  | ⟨1, _⟩ => show win0_1.index t (1 : Fin 2) * 6 + 1 * (j 1).val = (j 1).val; rw [e1]; omega

theorem iblk0_2_whole (c : Dev nD) (t : Fin cfg0.N) : iblk0 (F := Ideal) V c 2 t = V c main_arg9 := by
  obtain ⟨e0, e1⟩ := idx0_2 t
  funext j
  unfold iblk0
  rw [View.read_apply]
  show V c main_arg9 _ = V c main_arg9 _
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

theorem iblk0_3_whole (c : Dev nD) (t : Fin cfg0.N) : iblk0 (F := Ideal) V c 3 t = V c main_arg10 := by
  have e0 := idx0_3 t
  funext j
  unfold iblk0
  rw [View.read_apply]
  show V c main_arg10 _ = V c main_arg10 _
  congr 1
  funext a
  apply Fin.ext
  match a with
  | ⟨0, _⟩ => show win0_3.index t (0 : Fin 1) * 128 + 1 * (j 0).val = (j 0).val; rw [e0]; omega

theorem iblk0_4_whole (c : Dev nD) (t : Fin cfg0.N) : iblk0 (F := Ideal) V c 4 t = V c main_arg11 := by
  obtain ⟨e0, e1⟩ := idx0_4 t
  funext j
  unfold iblk0
  rw [View.read_apply]
  show V c main_arg11 _ = V c main_arg11 _
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem iblk0_5_whole (c : Dev nD) (t : Fin cfg0.N) : iblk0 (F := Ideal) V c 5 t = V c main_arg12 := by
  have e0 := idx0_5 t
  funext j
  unfold iblk0
  rw [View.read_apply]
  show V c main_arg12 _ = V c main_arg12 _
  congr 1
  funext a
  apply Fin.ext
  match a with
  | ⟨0, _⟩ => show win0_5.index t (0 : Fin 1) * 128 + 1 * (j 0).val = (j 0).val; rw [e0]; omega

theorem iblk0_6_whole (c : Dev nD) (t : Fin cfg0.N) : iblk0 (F := Ideal) V c 6 t = V c main_v0 := by
  obtain ⟨e0, e1⟩ := idx0_6 t
  funext j
  unfold iblk0
  rw [View.read_apply]
  show V c main_v0 _ = V c main_v0 _
  congr 1
  funext a
  apply Fin.ext
  match a with
  | ⟨0, _⟩ => show win0_6.index t (0 : Fin 2) * 6 + 1 * (j 0).val = (j 0).val; rw [e0]; omega
  | ⟨1, _⟩ => show win0_6.index t (1 : Fin 2) * 128 + 1 * (j 1).val = (j 1).val; rw [e1]; omega

theorem iblk0_7_whole (c : Dev nD) (t : Fin cfg0.N) : iblk0 (F := Ideal) V c 7 t = V c main_arg13 := by
  obtain ⟨e0, e1⟩ := idx0_7 t
  funext j
  unfold iblk0
  rw [View.read_apply]
  show V c main_arg13 _ = V c main_arg13 _
  congr 1
  funext a
  apply Fin.ext
  match a with
  | ⟨0, _⟩ => show win0_7.index t (0 : Fin 2) * 128 + 1 * (j 0).val = (j 0).val; rw [e0]; omega
  | ⟨1, _⟩ => show win0_7.index t (1 : Fin 2) * 64 + 1 * (j 1).val = (j 1).val; rw [e1]; omega

/-- Output window 8's block at point t, read off an array G, is rows of block t of G. -/
theorem blk0_8_rows (t : Fin cfg0.N) (G : (⟨2, ![200000, 128]⟩ : Shape).Idx → EReal) :
    (rowsOf (rho0 t) G : (⟨2, ![5000, 128]⟩ : Shape).Idx → EReal) = fun j => G (((cfg0.win 8).blk t).view.emb j) := by
  obtain ⟨e0, e1⟩ := idx0_8 t
  funext j
  show G _ = G _
  congr 1
  funext a
  apply Fin.ext
  match a with
  | ⟨0, _⟩ => show 5000 * t.val + (j 0).val = win0_8.index t (0 : Fin 2) * 5000 + 1 * (j 0).val; rw [e0]; omega
  | ⟨1, _⟩ => show (j 1).val = win0_8.index t (1 : Fin 2) * 128 + 1 * (j 1).val; rw [e1]; omega

/-- An index of the array is in point t's block of window 8 iff each coordinate is in the block's range. -/
theorem mem_blk0_8 (t : Fin cfg0.N) (i : S200000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v2_0).slice (win0_8.rect t)).set ↔ _
  rw [View.set_slice_whole, Rect.mem_set_unit]
  exact Iff.rfl

/-- Every edge row is in the block of the point numbered by its row over 5000. -/
theorem covered0_8 (i : S200000x128.Idx) :
    ∃ t : Fin cfg0.N, (cfg0.win 8).flush t = true ∧ i ∈ ((cfg0.win 8).blk t).view.set := by
  have hi0 : (i 0).val < 200000 := (i 0).isLt
  have hi1 : (i 1).val < 128 := (i 1).isLt
  have ht : (i 0).val / 5000 < 40 := by omega
  refine ⟨⟨(i 0).val / 5000, ht⟩, flush0_8 _, ?_⟩
  rw [mem_blk0_8]
  obtain ⟨e0, e1⟩ := idx0_8 ⟨(i 0).val / 5000, ht⟩
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, ht⟩ (1 : Fin 2) * 128 ≤ (i 1).val
      ∧ (i 1).val < win0_8.index ⟨(i 0).val / 5000, ht⟩ (1 : Fin 2) * 128 + 128
    rw [e1]; omega

/-- Output window 9's block at point t, read off an array G, is rows of block t of G. -/
theorem blk0_9_rows (t : Fin cfg0.N) (G : (⟨2, ![200000, 64]⟩ : Shape).Idx → EReal) :
    (rowsOf (rho0 t) G : (⟨2, ![5000, 64]⟩ : Shape).Idx → EReal) = fun j => G (((cfg0.win 9).blk t).view.emb j) := by
  obtain ⟨e0, e1⟩ := idx0_9 t
  funext j
  show G _ = G _
  congr 1
  funext a
  apply Fin.ext
  match a with
  | ⟨0, _⟩ => show 5000 * t.val + (j 0).val = win0_9.index t (0 : Fin 2) * 5000 + 1 * (j 0).val; rw [e0]; omega
  | ⟨1, _⟩ => show (j 1).val = win0_9.index t (1 : Fin 2) * 64 + 1 * (j 1).val; rw [e1]; omega

/-- An index of the array is in point t's block of window 9 iff each coordinate is in the block's range. -/
theorem mem_blk0_9 (t : Fin cfg0.N) (i : S200000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v2_1).slice (win0_9.rect t)).set ↔ _
  rw [View.set_slice_whole, Rect.mem_set_unit]
  exact Iff.rfl

/-- Every edge row is in the block of the point numbered by its row over 5000. -/
theorem covered0_9 (i : S200000x64.Idx) :
    ∃ t : Fin cfg0.N, (cfg0.win 9).flush t = true ∧ i ∈ ((cfg0.win 9).blk t).view.set := by
  have hi0 : (i 0).val < 200000 := (i 0).isLt
  have hi1 : (i 1).val < 64 := (i 1).isLt
  have ht : (i 0).val / 5000 < 40 := by omega
  refine ⟨⟨(i 0).val / 5000, ht⟩, flush0_9 _, ?_⟩
  rw [mem_blk0_9]
  obtain ⟨e0, e1⟩ := idx0_9 ⟨(i 0).val / 5000, ht⟩
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, ht⟩ (1 : Fin 2) * 64 ≤ (i 1).val
      ∧ (i 1).val < win0_9.index ⟨(i 0).val / 5000, ht⟩ (1 : Fin 2) * 64 + 64
    rw [e1]; omega

/-- What point t writes back to the kept-messages array is block t of the swish layer of all edges' features. -/
theorem flushed0_8_eq (c : Dev nD) (t : Fin cfg0.N) :
    (dat0 (F := Ideal) V c).flushed 8 t
      = ((cfg0.win 8).blk t).view.read (Elt Ideal)
          (Cert.Net.dense (V c main_arg0) (V c main_arg9) (V c main_arg10)) := by
  show (cfg0.win 8).cut (grid0.coords t) ((dat0 (F := Ideal) V c).after 8 t) = _
  rw [after0_8]
  unfold out0_8
  rw [View.canon_unit_zero hz0]
  simp only [View.ld_unit_zero (S := S5000x128) hz0, View.ld_unit_zero (S := S128x128) hz0,
    View.ld_unit_zero (S := S128) hz0v]
  rw [pay2_of_rows (rho0 t) _ _ _ (V c main_arg0) (V c main_arg9) (V c main_arg10)
    (iblk0_0_rows V c t) (iblk0_2_whole V c t) (iblk0_3_whole V c t)]
  rw [blk0_8_rows t]
  rfl

/-- What point t writes back to the passed-on array is block t of the down-projected messages. -/
theorem flushed0_9_eq (c : Dev nD) (t : Fin cfg0.N) :
    (dat0 (F := Ideal) V c).flushed 9 t
      = ((cfg0.win 9).blk t).view.read (Elt Ideal)
          (Cert.Net.down (V c main_arg0) (V c main_arg11) (V c main_arg12)
            (propagate (V c main_arg1) (V c main_v0)) (V c main_arg13)) := by
  show (cfg0.win 9).cut (grid0.coords t) ((dat0 (F := Ideal) V c).after 9 t) = _
  rw [after0_9]
  unfold out0_9
  rw [View.canon_unit_zero hz0]
  simp only [View.ld_unit_zero (S := S5000x128) hz0, View.ld_unit_zero (S := S128x128) hz0,
    View.ld_unit_zero (S := S128) hz0v, View.ld_unit_zero (S := S5000x6) hz0, View.ld_unit_zero (S := S6x128) hz0,
    View.ld_unit_zero (S := S128x64) hz0]
  rw [pay3_of_rows (rho0 t) _ _ _ _ _ _ (V c main_arg0) (V c main_arg11) (V c main_arg12) (V c main_arg1)
    (V c main_v0) (V c main_arg13)
    (iblk0_0_rows V c t) (iblk0_4_whole V c t) (iblk0_5_whole V c t) (iblk0_1_rows V c t) (iblk0_6_whole V c t)
    (iblk0_7_whole V c t)]
  rw [blk0_9_rows t]
  rfl

end Region0

/-- After the first grid the kept-messages array holds the swish layer of all edges' features. -/
theorem region0_kept (c : Dev nD) :
    (dat0 (F := Ideal) V c).arrAt 8 cfg0.N
      = Cert.Net.dense (V c main_arg0) (V c main_arg9) (V c main_arg10) :=
  (dat0 (F := Ideal) V c).arrAt_eq_of_cover 8 _ (fun t _ => Region0.flushed0_8_eq V c t) Region0.covered0_8

/-- After the first grid the passed-on array holds the down-projected messages, the radial factor being the product
    of the radial basis with the folded table. -/
theorem region0_down (c : Dev nD) :
    (dat0 (F := Ideal) V c).arrAt 9 cfg0.N
      = Cert.Net.down (V c main_arg0) (V c main_arg11) (V c main_arg12)
          (propagate (V c main_arg1) (V c main_v0)) (V c main_arg13) :=
  (dat0 (F := Ideal) V c).arrAt_eq_of_cover 9 _ (fun t _ => Region0.flushed0_9_eq V c t) Region0.covered0_9

end Cert.KernelIdeal.Blocks

end
-- ==== Proof.Region1.lean ====
/-
  The second grid: 250 blocks of 8000 triplets.

  Point t of the grid reads rows 8000 t, …, 8000 t + 7999 of the angular basis and of the gathered messages, and the
  whole folded angular table; it writes, into the same rows of the triplet array, the gathered rows times the rows of
  (basis · table), entry by entry. A product with a fixed right factor and an entry-by-entry product both act on each
  row separately, so block t written is block t of the one array  gathered ⊙ (basis · table); the 250 blocks tile the
  2000000 rows (row r lies in block r / 8000), so that array is what the triplet array holds after the grid.
-/
import proofs.«114219_j23149873725723_2_alg».proof.Proof.Gen.KernelIdeal.Frame
import proofs.«114219_j23149873725723_2_alg».proof.Proof.Gen.KernelIdeal.Points
import proofs.«114219_j23149873725723_2_alg».proof.Proof.Net

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.BlockRows Cert.RowLayers Cert.BiasRows Cert.Swish

variable (V : (c : Dev nD) → (b : Ref sig .tc) → Buf (Elt Ideal) ((c : Thread nD τ).loc b))

namespace Region1

/-- The all-zero offsets of a whole-block access, as a constant function. -/
theorem hz1 : (![0, 0] : Fin 2 → Nat) = fun _ => 0 := funext fun a => by fin_cases a <;> rfl

/-- Rows 8000 t, …, 8000 t + 7999 of the triplet arrays: the rows of block t. -/
def rho1 (t : Fin cfg1.N) : Fin 8000 → Fin 2000000 := blockRow 8000 250 2000000 (by norm_num) t

/-- The index maps over the 250 points: the three row-blocked windows sit at block t, column block 0; the table's
    window stays at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The payload on rows: with the angular basis block rows ρ of A, the gathered block rows ρ of Gm and the table T,
    the stored block is rows ρ of Gm ⊙ (A · T). -/
theorem pay1_of_rows (ρ : Fin 8000 → Fin 2000000)
    (x0 : FVec Ideal ⟨2, ![8000, 42]⟩ .f32) (x1 : FVec Ideal ⟨2, ![8000, 64]⟩ .bf16) (x2 : FVec Ideal ⟨2, ![42, 64]⟩ .f32)
    (A : FVec Ideal ⟨2, ![2000000, 42]⟩ .f32) (Gm : FVec Ideal ⟨2, ![2000000, 64]⟩ .f32) (Tb : FVec Ideal ⟨2, ![42, 64]⟩ .f32)
    (h0 : x0 = rowsOf ρ A) (h1 : (x1 : (⟨2, ![8000, 64]⟩ : Shape).Idx → EReal) = rowsOf ρ Gm) (h2 : x2 = Tb) :
    (k1_pay1 (F := Ideal) x0 x2 x1 : (⟨2, ![8000, 64]⟩ : Shape).Idx → EReal) = rowsOf ρ (mulf Gm (propagate A Tb)) := by
  have hm := matmul_of_rows ρ (truncf .bf16 x0 bitsLt_bf16_f32)
    (truncf .bf16 (shapeCast S42x64 x2 shapeCasts_S42x64_S42x64) bitsLt_bf16_f32) A Tb h0
    (by rw [shapeCast_self]; exact h2)
  unfold k1_pay1
  exact mulf_of_rows ρ _ _ Gm (propagate A Tb) (by rw [shapeCast_self]; exact h1) hm

/-- The angular-basis window's block at point t: rows of block t of the array. -/
theorem iblk1_0_rows (c : Dev nD) (t : Fin cfg1.N) :
    iblk1 (F := Ideal) V c 0 t = rowsOf (rho1 t) (V c main_arg2) := by
  obtain ⟨e0, e1, -⟩ := idx_facts1 t
  funext j
  unfold iblk1
  rw [View.read_apply]
  show V c main_arg2 _ = V c main_arg2 _
  congr 1
  funext a
  apply Fin.ext
  match a with
  | ⟨0, _⟩ => show win1_0.index t (0 : Fin 2) * 8000 + 1 * (j 0).val = 8000 * t.val + (j 0).val; rw [e0]; omega
  | ⟨1, _⟩ => show win1_0.index t (1 : Fin 2) * 42 + 1 * (j 1).val = (j 1).val; rw [e1]; omega

/-- The gathered-messages window's block at point t: rows of block t of the array. -/
theorem iblk1_1_rows (c : Dev nD) (t : Fin cfg1.N) :
    iblk1 (F := Ideal) V c 1 t = rowsOf (rho1 t) (V c main_v9) := by
  obtain ⟨-, -, e0, e1, -⟩ := idx_facts1 t
  funext j
  unfold iblk1
  rw [View.read_apply]
  show V c main_v9 _ = V c main_v9 _
  congr 1
  funext a
  apply Fin.ext
  match a with
  | ⟨0, _⟩ => show win1_1.index t (0 : Fin 2) * 8000 + 1 * (j 0).val = 8000 * t.val + (j 0).val; rw [e0]; omega
  | ⟨1, _⟩ => show win1_1.index t (1 : Fin 2) * 64 + 1 * (j 1).val = (j 1).val; rw [e1]; omega

/-- The table's window holds the whole table at every point. -/
theorem iblk1_2_whole (c : Dev nD) (t : Fin cfg1.N) : iblk1 (F := Ideal) V c 2 t = V c main_v1 := by
  obtain ⟨-, -, -, -, e0, e1, -⟩ := idx_facts1 t
  funext j
  unfold iblk1
  rw [View.read_apply]
  show V c main_v1 _ = V c main_v1 _
  congr 1
  funext a
  apply Fin.ext
  match a with
  | ⟨0, _⟩ => show win1_2.index t (0 : Fin 2) * 42 + 1 * (j 0).val = (j 0).val; rw [e0]; omega
  | ⟨1, _⟩ => show win1_2.index t (1 : Fin 2) * 64 + 1 * (j 1).val = (j 1).val; rw [e1]; omega

/-- The output window's block at point t, read off an array G, is rows of block t of G. -/
theorem blk1_3_rows (t : Fin cfg1.N) (G : (⟨2, ![2000000, 64]⟩ : Shape).Idx → EReal) :
    (rowsOf (rho1 t) G : (⟨2, ![8000, 64]⟩ : Shape).Idx → EReal) = fun j => G (((cfg1.win 3).blk t).view.emb j) := by
  obtain ⟨-, -, -, -, -, -, e0, e1⟩ := idx_facts1 t
  funext j
  show G _ = G _
  congr 1
  funext a
  apply Fin.ext
  match a with
  | ⟨0, _⟩ => show 8000 * t.val + (j 0).val = win1_3.index t (0 : Fin 2) * 8000 + 1 * (j 0).val; rw [e0]; omega
  | ⟨1, _⟩ => show (j 1).val = win1_3.index t (1 : Fin 2) * 64 + 1 * (j 1).val; rw [e1]; omega

/-- What point t writes back is block t of the gathered messages times the angular factor. -/
theorem flushed1_eq (c : Dev nD) (t : Fin cfg1.N) :
    (dat1 (F := Ideal) V c).flushed 3 t
      = ((cfg1.win 3).blk t).view.read (Elt Ideal)
          (mulf (V c main_v9) (propagate (V c main_arg2) (V c main_v1))) := by
  show (cfg1.win 3).cut (grid1.coords t) ((dat1 (F := Ideal) V c).after 3 t) = _
  rw [after1_3]
  unfold out1_3
  rw [View.canon_unit_zero hz1]
  simp only [View.ld_unit_zero (S := S8000x42) hz1, View.ld_unit_zero (S := S42x64) hz1,
    View.ld_unit_zero (S := S8000x64) hz1]
  rw [pay1_of_rows (rho1 t) _ _ _ (V c main_arg2) (V c main_v9) (V c main_v1)
    (iblk1_0_rows V c t) (iblk1_1_rows V c t) (iblk1_2_whole V c t)]
  rw [blk1_3_rows t]
  rfl

/-- An index of the triplet array is in point t's block iff each coordinate is in the block's range. -/
theorem mem_blk1 (t : Fin cfg1.N) (i : S2000000x64.Idx) :
    i ∈ ((cfg1.win 3).blk t).view.set ↔ ∀ a : Fin 2, win1_3.index t a * S8000x64.size a ≤ (i a).val
      ∧ (i a).val < win1_3.index t a * S8000x64.size a + S8000x64.size a := by
  show i ∈ ((View.whole main_v10).slice (win1_3.rect t)).set ↔ _
  rw [View.set_slice_whole, Rect.mem_set_unit]
  exact Iff.rfl

/-- Every triplet row is in the block of the point numbered by its row over 8000. -/
theorem cover1 (i : S2000000x64.Idx) :
    ∃ t : Fin cfg1.N, (cfg1.win 3).flush t = true ∧ i ∈ ((cfg1.win 3).blk t).view.set := by
  have hi0 : (i 0).val < 2000000 := (i 0).isLt
  have hi1 : (i 1).val < 64 := (i 1).isLt
  have ht : (i 0).val / 8000 < 250 := by omega
  refine ⟨⟨(i 0).val / 8000, ht⟩, flush1_3 _, ?_⟩
  rw [mem_blk1]
  obtain ⟨-, -, -, -, -, -, e0, e1⟩ := idx_facts1 ⟨(i 0).val / 8000, ht⟩
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_3.index ⟨(i 0).val / 8000, ht⟩ (1 : Fin 2) * 64 ≤ (i 1).val
      ∧ (i 1).val < win1_3.index ⟨(i 0).val / 8000, ht⟩ (1 : Fin 2) * 64 + 64
    rw [e1]; omega

end Region1

/-- After the second grid the triplet array holds the gathered messages times the angular factor. -/
theorem region1_msg (c : Dev nD) :
    (dat1 (F := Ideal) V c).arrAt 3 cfg1.N
      = mulf (V c main_v9) (propagate (V c main_arg2) (V c main_v1)) :=
  (dat1 (F := Ideal) V c).arrAt_eq_of_cover 3 _ (fun t _ => Region1.flushed1_eq V c t) Region1.cover1

end Cert.KernelIdeal.Blocks

end
-- ==== Proof.Region2.lean ====
/-
  The third grid: 50 blocks of 4000 edges.

  Every operation of the body — a product with a fixed right factor, a bias row added to every row, swish, a sum of two
  operands — acts on each row separately, so the body computed on rows 4000 t, …, 4000 t + 3999 of the three arrays on
  edges gives the same rows of the network's tail computed on all 200000 edges. Point t writes that block back, and the
  50 blocks cover the result array: row r lies in the block of point r / 4000. So the array ends holding the tail.
-/
import proofs.«114219_j23149873725723_2_alg».proof.Proof.Gen.KernelIdeal.Frame
import proofs.«114219_j23149873725723_2_alg».proof.Proof.Net

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.Pipeline (Dat Cfg Window)
open Cert.BlockRows Cert.RowLayers Cert.BiasRows Cert.Swish

variable (V : (c : Dev nD) → (b : Ref sig .tc) → Buf (Elt Ideal) ((c : Thread nD τ).loc b))

namespace Region2

/-! ## The body's arithmetic on picked rows -/

section Payload

open Cert.Net (E hrow hdown dense resid tail)

variable (ρ : Fin 4000 → Fin 200000)

/-- The bias vector laid as a row and broadcast down a block is the picked rows of the bias matrix on all edges. -/
theorem pay3_rows (b : FVec Ideal S128 .f32) :
    k2_pay3 (F := Ideal) b = rowsOf ρ (bias hrow hdown b) := by
  unfold k2_pay3
  exact bias_rows ρ b shapeCasts_S128_S1x128 broadcasts_S1x128_S4000x128 hrow hdown

/-- The first part: the sums projected up and added to the kept messages, one residual pair of layers, and the
    product with the next layer's weights — all on the block's rows. -/
theorem pay2_rows (x2 : FVec Ideal S4000x64 .f32) (x1 : FVec Ideal S4000x128 .bf16)
    (Xji : FVec Ideal S200000x128 .f32) (Xsum : FVec Ideal S200000x64 .f32)
    (h1 : (x1 : S4000x128.Idx → EReal) = rowsOf ρ Xji) (h2 : x2 = rowsOf ρ Xsum)
    (Wup : FVec Ideal S64x128 .f32) (Wb1 : FVec Ideal S128x128 .f32) (bb1 : FVec Ideal S128 .f32)
    (Wb2 : FVec Ideal S128x128 .f32) (bb2 : FVec Ideal S128 .f32) (Wfin : FVec Ideal S128x128 .f32) :
    k2_pay2 (F := Ideal) x2 Wup x1 Wb1 bb1 Wb2 bb2 Wfin
      = rowsOf ρ (propagate (resid (addf Xji (swish (propagate Xsum Wup))) Wb1 bb1 Wb2 bb2) Wfin) := by
  have e5 := matmul_of_rows ρ (truncf .bf16 (shapeCast S4000x64 x2 shapeCasts_S4000x64_S4000x64) bitsLt_bf16_f32)
    (truncf .bf16 Wup bitsLt_bf16_f32) Xsum Wup
    (trunc_of_rows ρ bitsLt_bf16_f32 _ Xsum (cast_of_rows ρ x2 Xsum h2 shapeCasts_S4000x64_S4000x64))
    (trunc_whole bitsLt_bf16_f32 Wup Wup rfl)
  have e7 := swish_of_rows ρ _ _ e5
  have e10 : (extf .f32 (shapeCast S4000x128 x1 shapeCasts_S4000x128_S4000x128) bitsLt_bf16_f32 : FVec Ideal S4000x128 .f32)
      = rowsOf ρ Xji := cast_of_rows ρ x1 Xji h1 shapeCasts_S4000x128_S4000x128
  have e11 := addf_of_rows ρ _ _ Xji _ e10 e7
  have e21 := layer_of_rows ρ (truncf .bf16 _ bitsLt_bf16_f32) (truncf .bf16 Wb1 bitsLt_bf16_f32) _ Wb1
    (trunc_of_rows ρ bitsLt_bf16_f32 _ _ e11) (trunc_whole bitsLt_bf16_f32 Wb1 Wb1 rfl) bb1
    shapeCasts_S128_S1x128 broadcasts_S1x128_S4000x128 hrow hdown _ rfl
  have e31 := layer_of_rows ρ (truncf .bf16 _ bitsLt_bf16_f32) (truncf .bf16 Wb2 bitsLt_bf16_f32) _ Wb2
    (trunc_of_rows ρ bitsLt_bf16_f32 _ _ e21) (trunc_whole bitsLt_bf16_f32 Wb2 Wb2 rfl) bb2
    shapeCasts_S128_S1x128 broadcasts_S1x128_S4000x128 hrow hdown _ rfl
  have e32 := addf_of_rows ρ _ _ _ _ e11 e31
  unfold k2_pay2
  exact matmul_of_rows ρ (truncf .bf16 _ bitsLt_bf16_f32) (truncf .bf16 Wfin bitsLt_bf16_f32) _ Wfin
    (trunc_of_rows ρ bitsLt_bf16_f32 _ _ e32) (trunc_whole bitsLt_bf16_f32 Wfin Wfin rfl)

/-- The second part up to its residual: the bias and swish of the layer begun in the first part, the skip from the
    block's input, and one residual pair of layers. -/
theorem pay4_rows (v37 v39 x0 : FVec Ideal S4000x128 .f32) (P B X : FVec Ideal S200000x128 .f32)
    (h37 : v37 = rowsOf ρ P) (h39 : v39 = rowsOf ρ B) (h0 : x0 = rowsOf ρ X)
    (Wa11 : FVec Ideal S128x128 .f32) (ba11 : FVec Ideal S128 .f32) (Wa12 : FVec Ideal S128x128 .f32) (ba12 : FVec Ideal S128 .f32) :
    k2_pay4 (F := Ideal) v37 v39 x0 Wa11 ba11 Wa12 ba12
      = rowsOf ρ (resid (addf X (swish (addf P B))) Wa11 ba11 Wa12 ba12) := by
  have e40 := addf_of_rows ρ _ _ P B h37 h39
  have e42 := swish_of_rows ρ _ _ e40
  have e44 := addf_of_rows ρ _ _ X _ h0 e42
  have e54 := layer_of_rows ρ (truncf .bf16 _ bitsLt_bf16_f32) (truncf .bf16 Wa11 bitsLt_bf16_f32) _ Wa11
    (trunc_of_rows ρ bitsLt_bf16_f32 _ _ e44) (trunc_whole bitsLt_bf16_f32 Wa11 Wa11 rfl) ba11
    shapeCasts_S128_S1x128 broadcasts_S1x128_S4000x128 hrow hdown _ rfl
  have e64 := layer_of_rows ρ (truncf .bf16 _ bitsLt_bf16_f32) (truncf .bf16 Wa12 bitsLt_bf16_f32) _ Wa12
    (trunc_of_rows ρ bitsLt_bf16_f32 _ _ e54) (trunc_whole bitsLt_bf16_f32 Wa12 Wa12 rfl) ba12
    shapeCasts_S128_S1x128 broadcasts_S1x128_S4000x128 hrow hdown _ rfl
  unfold k2_pay4
  exact addf_of_rows ρ _ _ _ _ e44 e64

/-- The second part's last product: one more layer on the residual's output, times the last layer's weights. -/
theorem pay5_rows (v37 v39 x0 : FVec Ideal S4000x128 .f32) (H : FVec Ideal S200000x128 .f32)
    (Wa11 : FVec Ideal S128x128 .f32) (ba11 : FVec Ideal S128 .f32) (Wa12 : FVec Ideal S128x128 .f32) (ba12 : FVec Ideal S128 .f32)
    (Wa21 : FVec Ideal S128x128 .f32) (ba21 : FVec Ideal S128 .f32) (Wa22 : FVec Ideal S128x128 .f32)
    (h4 : k2_pay4 (F := Ideal) v37 v39 x0 Wa11 ba11 Wa12 ba12 = rowsOf ρ H) :
    k2_pay5 (F := Ideal) v37 v39 x0 Wa11 ba11 Wa12 ba12 Wa21 ba21 Wa22
      = rowsOf ρ (propagate (dense H Wa21 ba21) Wa22) := by
  have e75 := layer_of_rows ρ (truncf .bf16 _ bitsLt_bf16_f32) (truncf .bf16 Wa21 bitsLt_bf16_f32) _ Wa21
    (trunc_of_rows ρ bitsLt_bf16_f32 _ _ h4) (trunc_whole bitsLt_bf16_f32 Wa21 Wa21 rfl) ba21
    shapeCasts_S128_S1x128 broadcasts_S1x128_S4000x128 hrow hdown _ rfl
  unfold k2_pay5
  exact matmul_of_rows ρ (truncf .bf16 _ bitsLt_bf16_f32) (truncf .bf16 Wa22 bitsLt_bf16_f32) _ Wa22
    (trunc_of_rows ρ bitsLt_bf16_f32 _ _ e75) (trunc_whole bitsLt_bf16_f32 Wa22 Wa22 rfl)

/-- The stored value: the last layer's bias and swish, added to the residual's input. -/
theorem pay1_rows (v65 v80 : FVec Ideal S4000x128 .f32) (b : FVec Ideal S128 .f32) (H P : FVec Ideal S200000x128 .f32)
    (h65 : v65 = rowsOf ρ H) (h80 : v80 = rowsOf ρ P) :
    k2_pay1 (F := Ideal) v65 v80 (k2_pay6 b) = rowsOf ρ (addf H (swish (addf P (bias hrow hdown b)))) := by
  have e82 : broadcastTo S4000x128 (k2_pay6 (F := Ideal) b) broadcasts_S1x128_S4000x128 = rowsOf ρ (bias hrow hdown b) :=
    bias_rows ρ b shapeCasts_S128_S1x128 broadcasts_S1x128_S4000x128 hrow hdown
  have e83 := addf_of_rows ρ _ _ P _ h80 e82
  have e85 := swish_of_rows ρ _ _ e83
  unfold k2_pay1
  exact addf_of_rows ρ _ _ _ _ h65 e85

/-- The whole body on a block: when the three row-blocked operands are picked rows of the arrays on all edges and the
    resident operands are the weights and biases, the stored value is the picked rows of the tail of the network. -/
theorem tail_of_rows (x0 : FVec Ideal S4000x128 .f32) (x1 : FVec Ideal S4000x128 .bf16) (x2 : FVec Ideal S4000x64 .f32)
    (w3 : FVec Ideal S64x128 .f32) (w4 : FVec Ideal S128x128 .f32) (b5 : FVec Ideal S128 .f32) (w6 : FVec Ideal S128x128 .f32) (b7 : FVec Ideal S128 .f32) (w8 : FVec Ideal S128x128 .f32) (b9 : FVec Ideal S128 .f32) (w10 : FVec Ideal S128x128 .f32) (b11 : FVec Ideal S128 .f32) (w12 : FVec Ideal S128x128 .f32) (b13 : FVec Ideal S128 .f32) (w14 : FVec Ideal S128x128 .f32) (b15 : FVec Ideal S128 .f32) (w16 : FVec Ideal S128x128 .f32) (b17 : FVec Ideal S128 .f32)
    (X Xji : FVec Ideal S200000x128 .f32) (Xsum : FVec Ideal S200000x64 .f32)
    (Wup : FVec Ideal S64x128 .f32) (Wb1 : FVec Ideal S128x128 .f32) (bb1 : FVec Ideal S128 .f32) (Wb2 : FVec Ideal S128x128 .f32) (bb2 : FVec Ideal S128 .f32) (Wfin : FVec Ideal S128x128 .f32) (bfin : FVec Ideal S128 .f32) (Wa11 : FVec Ideal S128x128 .f32) (ba11 : FVec Ideal S128 .f32) (Wa12 : FVec Ideal S128x128 .f32) (ba12 : FVec Ideal S128 .f32) (Wa21 : FVec Ideal S128x128 .f32) (ba21 : FVec Ideal S128 .f32) (Wa22 : FVec Ideal S128x128 .f32) (ba22 : FVec Ideal S128 .f32)
    (h0 : x0 = rowsOf ρ X) (h1 : (x1 : S4000x128.Idx → EReal) = rowsOf ρ Xji) (h2 : x2 = rowsOf ρ Xsum)
    (h3 : w3 = Wup) (h4 : w4 = Wb1) (h5 : b5 = bb1) (h6 : w6 = Wb2) (h7 : b7 = bb2) (h8 : w8 = Wfin) (h9 : b9 = bfin) (h10 : w10 = Wa11) (h11 : b11 = ba11) (h12 : w12 = Wa12) (h13 : b13 = ba12) (h14 : w14 = Wa21) (h15 : b15 = ba21) (h16 : w16 = Wa22) (h17 : b17 = ba22) :
    k2_pay1 (F := Ideal) (k2_pay4 (k2_pay2 x2 w3 x1 w4 b5 w6 b7 w8) (k2_pay3 b9) x0 w10 b11 w12 b13)
        (k2_pay5 (k2_pay2 x2 w3 x1 w4 b5 w6 b7 w8) (k2_pay3 b9) x0 w10 b11 w12 b13 w14 b15 w16) (k2_pay6 b17)
      = rowsOf ρ (tail X Xji Xsum Wup Wb1 bb1 Wb2 bb2 Wfin bfin Wa11 ba11 Wa12 ba12 Wa21 ba21 Wa22 ba22) := by
  subst h3 h4 h5 h6 h7 h8 h9 h10 h11 h12 h13 h14 h15 h16 h17
  have e2 := pay2_rows ρ x2 x1 Xji Xsum h1 h2 w3 w4 b5 w6 b7 w8
  have e3 := pay3_rows ρ b9
  have e4 := pay4_rows ρ _ _ x0 _ _ X e2 e3 h0 w10 b11 w12 b13
  have e5 := pay5_rows ρ _ _ x0 _ w10 b11 w12 b13 w14 b15 w16 e4
  exact pay1_rows ρ _ _ b17 _ _ e4 e5

end Payload

/-! ## The blocks of the third grid -/

theorem hz2 : (![0, 0] : Fin 2 → Nat) = fun _ => 0 := funext fun a => by fin_cases a <;> rfl
theorem hz1 : (![0] : Fin 1 → Nat) = fun _ => 0 := funext fun a => by fin_cases a <;> rfl

/-- The row-blocked windows (the three inputs on edges and the result) are at block t of their rows at point t. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_18.index t (0 : Fin 2) = t.val ∧ win2_18.index t (1 : Fin 2) = 0 :=
  (by decide +kernel : ∀ t : Fin grid2.N, _)

/-- The weight matrices stay at their one block. -/
theorem idx_mats : ∀ t : Fin cfg2.N,
    win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_8.index t (0 : Fin 2) = 0 ∧ win2_8.index t (1 : Fin 2) = 0
    ∧ win2_10.index t (0 : Fin 2) = 0 ∧ win2_10.index t (1 : Fin 2) = 0
    ∧ win2_12.index t (0 : Fin 2) = 0 ∧ win2_12.index t (1 : Fin 2) = 0
    ∧ win2_14.index t (0 : Fin 2) = 0 ∧ win2_14.index t (1 : Fin 2) = 0
    ∧ win2_16.index t (0 : Fin 2) = 0 ∧ win2_16.index t (1 : Fin 2) = 0 :=
  (by decide +kernel : ∀ t : Fin grid2.N, _)

/-- The bias vectors stay at their one block. -/
theorem idx_vecs : ∀ t : Fin cfg2.N,
    win2_5.index t (0 : Fin 1) = 0 ∧ win2_7.index t (0 : Fin 1) = 0 ∧ win2_9.index t (0 : Fin 1) = 0 ∧ win2_11.index t (0 : Fin 1) = 0 ∧ win2_13.index t (0 : Fin 1) = 0 ∧ win2_15.index t (0 : Fin 1) = 0 ∧ win2_17.index t (0 : Fin 1) = 0 :=
  (by decide +kernel : ∀ t : Fin grid2.N, _)

/-- The rows of block t: 4000 t, 4000 t + 1, …. -/
abbrev rowsAt (t : Fin cfg2.N) : Fin 4000 → Fin 200000 := blockRow 4000 50 200000 (by norm_num) t

/-- Window 0's block at point t is rows 4000 t … of its array. -/
theorem blk0 (c : Dev nD) (t : Fin cfg2.N) :
    (iblk2 V c 0 t : S4000x128.Idx → EReal) = rowsOf (rowsAt t) (V c main_arg0) := by
  obtain ⟨e0, e1, -, -, -, -, -, -⟩ := idx_rows t
  funext j
  show V c main_arg0 (((cfg2.win 0).blk t).view.emb j) = V c main_arg0 (ValueIdx.ix2 (rowsAt t (j 0)) (j 1))
  refine congrArg (V c main_arg0) ?_
  funext a; apply Fin.ext
  match a with
  | ⟨0, _⟩ => show win2_0.index t (0 : Fin 2) * 4000 + 1 * (j 0).val = 4000 * t.val + (j 0).val; rw [e0]; omega
  | ⟨1, _⟩ => show win2_0.index t (1 : Fin 2) * 128 + 1 * (j 1).val = (j 1).val; rw [e1]; omega

/-- Window 1's block at point t is rows 4000 t … of its array. -/
theorem blk1 (c : Dev nD) (t : Fin cfg2.N) :
    (iblk2 V c 1 t : S4000x128.Idx → EReal) = rowsOf (rowsAt t) (V c main_v2_0) := by
  obtain ⟨-, -, e0, e1, -, -, -, -⟩ := idx_rows t
  funext j
  show V c main_v2_0 (((cfg2.win 1).blk t).view.emb j) = V c main_v2_0 (ValueIdx.ix2 (rowsAt t (j 0)) (j 1))
  refine congrArg (V c main_v2_0) ?_
  funext a; apply Fin.ext
  match a with
  | ⟨0, _⟩ => show win2_1.index t (0 : Fin 2) * 4000 + 1 * (j 0).val = 4000 * t.val + (j 0).val; rw [e0]; omega
  | ⟨1, _⟩ => show win2_1.index t (1 : Fin 2) * 128 + 1 * (j 1).val = (j 1).val; rw [e1]; omega

/-- Window 2's block at point t is rows 4000 t … of its array. -/
theorem blk2 (c : Dev nD) (t : Fin cfg2.N) :
    (iblk2 V c 2 t : S4000x64.Idx → EReal) = rowsOf (rowsAt t) (V c main_v14) := by
  obtain ⟨-, -, -, -, e0, e1, -, -⟩ := idx_rows t
  funext j
  show V c main_v14 (((cfg2.win 2).blk t).view.emb j) = V c main_v14 (ValueIdx.ix2 (rowsAt t (j 0)) (j 1))
  refine congrArg (V c main_v14) ?_
  funext a; apply Fin.ext
  match a with
  | ⟨0, _⟩ => show win2_2.index t (0 : Fin 2) * 4000 + 1 * (j 0).val = 4000 * t.val + (j 0).val; rw [e0]; omega
  | ⟨1, _⟩ => show win2_2.index t (1 : Fin 2) * 64 + 1 * (j 1).val = (j 1).val; rw [e1]; omega

/-- Window 3's block is its whole array at every point. -/
theorem blk3 (c : Dev nD) (t : Fin cfg2.N) : (iblk2 V c 3 t : FVec Ideal S64x128 .f32) = V c main_arg14 := by
  obtain ⟨e0, e1, -, -, -, -, -, -, -, -, -, -, -, -, -, -⟩ := idx_mats t
  funext j
  show V c main_arg14 (((cfg2.win 3).blk t).view.emb j) = V c main_arg14 j
  refine congrArg (V c main_arg14) ?_
  funext a; apply Fin.ext
  match a with
  | ⟨0, _⟩ => show win2_3.index t (0 : Fin 2) * 64 + 1 * (j 0).val = (j 0).val; rw [e0]; omega
  | ⟨1, _⟩ => show win2_3.index t (1 : Fin 2) * 128 + 1 * (j 1).val = (j 1).val; rw [e1]; omega

/-- Window 4's block is its whole array at every point. -/
theorem blk4 (c : Dev nD) (t : Fin cfg2.N) : (iblk2 V c 4 t : FVec Ideal S128x128 .f32) = V c main_arg15 := by
  obtain ⟨-, -, e0, e1, -, -, -, -, -, -, -, -, -, -, -, -⟩ := idx_mats t
  funext j
  show V c main_arg15 (((cfg2.win 4).blk t).view.emb j) = V c main_arg15 j
  refine congrArg (V c main_arg15) ?_
  funext a; apply Fin.ext
  match a with
  | ⟨0, _⟩ => show win2_4.index t (0 : Fin 2) * 128 + 1 * (j 0).val = (j 0).val; rw [e0]; omega
  | ⟨1, _⟩ => show win2_4.index t (1 : Fin 2) * 128 + 1 * (j 1).val = (j 1).val; rw [e1]; omega

/-- Window 6's block is its whole array at every point. -/
theorem blk6 (c : Dev nD) (t : Fin cfg2.N) : (iblk2 V c 6 t : FVec Ideal S128x128 .f32) = V c main_arg17 := by
  obtain ⟨-, -, -, -, e0, e1, -, -, -, -, -, -, -, -, -, -⟩ := idx_mats t
  funext j
  show V c main_arg17 (((cfg2.win 6).blk t).view.emb j) = V c main_arg17 j
  refine congrArg (V c main_arg17) ?_
  funext a; apply Fin.ext
  match a with
  | ⟨0, _⟩ => show win2_6.index t (0 : Fin 2) * 128 + 1 * (j 0).val = (j 0).val; rw [e0]; omega
  | ⟨1, _⟩ => show win2_6.index t (1 : Fin 2) * 128 + 1 * (j 1).val = (j 1).val; rw [e1]; omega

/-- Window 8's block is its whole array at every point. -/
theorem blk8 (c : Dev nD) (t : Fin cfg2.N) : (iblk2 V c 8 t : FVec Ideal S128x128 .f32) = V c main_arg19 := by
  obtain ⟨-, -, -, -, -, -, e0, e1, -, -, -, -, -, -, -, -⟩ := idx_mats t
  funext j
  show V c main_arg19 (((cfg2.win 8).blk t).view.emb j) = V c main_arg19 j
  refine congrArg (V c main_arg19) ?_
  funext a; apply Fin.ext
  match a with
  | ⟨0, _⟩ => show win2_8.index t (0 : Fin 2) * 128 + 1 * (j 0).val = (j 0).val; rw [e0]; omega
  | ⟨1, _⟩ => show win2_8.index t (1 : Fin 2) * 128 + 1 * (j 1).val = (j 1).val; rw [e1]; omega

/-- Window 10's block is its whole array at every point. -/
theorem blk10 (c : Dev nD) (t : Fin cfg2.N) : (iblk2 V c 10 t : FVec Ideal S128x128 .f32) = V c main_arg21 := by
  obtain ⟨-, -, -, -, -, -, -, -, e0, e1, -, -, -, -, -, -⟩ := idx_mats t
  funext j
  show V c main_arg21 (((cfg2.win 10).blk t).view.emb j) = V c main_arg21 j
  refine congrArg (V c main_arg21) ?_
  funext a; apply Fin.ext
  match a with
  | ⟨0, _⟩ => show win2_10.index t (0 : Fin 2) * 128 + 1 * (j 0).val = (j 0).val; rw [e0]; omega
  | ⟨1, _⟩ => show win2_10.index t (1 : Fin 2) * 128 + 1 * (j 1).val = (j 1).val; rw [e1]; omega

/-- Window 12's block is its whole array at every point. -/
theorem blk12 (c : Dev nD) (t : Fin cfg2.N) : (iblk2 V c 12 t : FVec Ideal S128x128 .f32) = V c main_arg23 := by
  obtain ⟨-, -, -, -, -, -, -, -, -, -, e0, e1, -, -, -, -⟩ := idx_mats t
  funext j
  show V c main_arg23 (((cfg2.win 12).blk t).view.emb j) = V c main_arg23 j
  refine congrArg (V c main_arg23) ?_
  funext a; apply Fin.ext
  match a with
  | ⟨0, _⟩ => show win2_12.index t (0 : Fin 2) * 128 + 1 * (j 0).val = (j 0).val; rw [e0]; omega
  | ⟨1, _⟩ => show win2_12.index t (1 : Fin 2) * 128 + 1 * (j 1).val = (j 1).val; rw [e1]; omega

/-- Window 14's block is its whole array at every point. -/
theorem blk14 (c : Dev nD) (t : Fin cfg2.N) : (iblk2 V c 14 t : FVec Ideal S128x128 .f32) = V c main_arg25 := by
  obtain ⟨-, -, -, -, -, -, -, -, -, -, -, -, e0, e1, -, -⟩ := idx_mats t
  funext j
  show V c main_arg25 (((cfg2.win 14).blk t).view.emb j) = V c main_arg25 j
  refine congrArg (V c main_arg25) ?_
  funext a; apply Fin.ext
  match a with
  | ⟨0, _⟩ => show win2_14.index t (0 : Fin 2) * 128 + 1 * (j 0).val = (j 0).val; rw [e0]; omega
  | ⟨1, _⟩ => show win2_14.index t (1 : Fin 2) * 128 + 1 * (j 1).val = (j 1).val; rw [e1]; omega

/-- Window 16's block is its whole array at every point. -/
theorem blk16 (c : Dev nD) (t : Fin cfg2.N) : (iblk2 V c 16 t : FVec Ideal S128x128 .f32) = V c main_arg27 := by
  obtain ⟨-, -, -, -, -, -, -, -, -, -, -, -, -, -, e0, e1⟩ := idx_mats t
  funext j
  show V c main_arg27 (((cfg2.win 16).blk t).view.emb j) = V c main_arg27 j
  refine congrArg (V c main_arg27) ?_
  funext a; apply Fin.ext
  match a with
  | ⟨0, _⟩ => show win2_16.index t (0 : Fin 2) * 128 + 1 * (j 0).val = (j 0).val; rw [e0]; omega
  | ⟨1, _⟩ => show win2_16.index t (1 : Fin 2) * 128 + 1 * (j 1).val = (j 1).val; rw [e1]; omega

/-- Window 5's block is its whole vector at every point. -/
theorem blk5 (c : Dev nD) (t : Fin cfg2.N) : (iblk2 V c 5 t : FVec Ideal S128 .f32) = V c main_arg16 := by
  obtain ⟨e0, -, -, -, -, -, -⟩ := idx_vecs t
  funext j
  show V c main_arg16 (((cfg2.win 5).blk t).view.emb j) = V c main_arg16 j
  refine congrArg (V c main_arg16) ?_
  funext a; apply Fin.ext
  match a with
  | ⟨0, _⟩ => show win2_5.index t (0 : Fin 1) * 128 + 1 * (j 0).val = (j 0).val; rw [e0]; omega

/-- Window 7's block is its whole vector at every point. -/
theorem blk7 (c : Dev nD) (t : Fin cfg2.N) : (iblk2 V c 7 t : FVec Ideal S128 .f32) = V c main_arg18 := by
  obtain ⟨-, e0, -, -, -, -, -⟩ := idx_vecs t
  funext j
  show V c main_arg18 (((cfg2.win 7).blk t).view.emb j) = V c main_arg18 j
  refine congrArg (V c main_arg18) ?_
  funext a; apply Fin.ext
  match a with
  | ⟨0, _⟩ => show win2_7.index t (0 : Fin 1) * 128 + 1 * (j 0).val = (j 0).val; rw [e0]; omega

/-- Window 9's block is its whole vector at every point. -/
theorem blk9 (c : Dev nD) (t : Fin cfg2.N) : (iblk2 V c 9 t : FVec Ideal S128 .f32) = V c main_arg20 := by
  obtain ⟨-, -, e0, -, -, -, -⟩ := idx_vecs t
  funext j
  show V c main_arg20 (((cfg2.win 9).blk t).view.emb j) = V c main_arg20 j
  refine congrArg (V c main_arg20) ?_
  funext a; apply Fin.ext
  match a with
  | ⟨0, _⟩ => show win2_9.index t (0 : Fin 1) * 128 + 1 * (j 0).val = (j 0).val; rw [e0]; omega

/-- Window 11's block is its whole vector at every point. -/
theorem blk11 (c : Dev nD) (t : Fin cfg2.N) : (iblk2 V c 11 t : FVec Ideal S128 .f32) = V c main_arg22 := by
  obtain ⟨-, -, -, e0, -, -, -⟩ := idx_vecs t
  funext j
  show V c main_arg22 (((cfg2.win 11).blk t).view.emb j) = V c main_arg22 j
  refine congrArg (V c main_arg22) ?_
  funext a; apply Fin.ext
  match a with
  | ⟨0, _⟩ => show win2_11.index t (0 : Fin 1) * 128 + 1 * (j 0).val = (j 0).val; rw [e0]; omega

/-- Window 13's block is its whole vector at every point. -/
theorem blk13 (c : Dev nD) (t : Fin cfg2.N) : (iblk2 V c 13 t : FVec Ideal S128 .f32) = V c main_arg24 := by
  obtain ⟨-, -, -, -, e0, -, -⟩ := idx_vecs t
  funext j
  show V c main_arg24 (((cfg2.win 13).blk t).view.emb j) = V c main_arg24 j
  refine congrArg (V c main_arg24) ?_
  funext a; apply Fin.ext
  match a with
  | ⟨0, _⟩ => show win2_13.index t (0 : Fin 1) * 128 + 1 * (j 0).val = (j 0).val; rw [e0]; omega

/-- Window 15's block is its whole vector at every point. -/
theorem blk15 (c : Dev nD) (t : Fin cfg2.N) : (iblk2 V c 15 t : FVec Ideal S128 .f32) = V c main_arg26 := by
  obtain ⟨-, -, -, -, -, e0, -⟩ := idx_vecs t
  funext j
  show V c main_arg26 (((cfg2.win 15).blk t).view.emb j) = V c main_arg26 j
  refine congrArg (V c main_arg26) ?_
  funext a; apply Fin.ext
  match a with
  | ⟨0, _⟩ => show win2_15.index t (0 : Fin 1) * 128 + 1 * (j 0).val = (j 0).val; rw [e0]; omega

/-- Window 17's block is its whole vector at every point. -/
theorem blk17 (c : Dev nD) (t : Fin cfg2.N) : (iblk2 V c 17 t : FVec Ideal S128 .f32) = V c main_arg28 := by
  obtain ⟨-, -, -, -, -, -, e0⟩ := idx_vecs t
  funext j
  show V c main_arg28 (((cfg2.win 17).blk t).view.emb j) = V c main_arg28 j
  refine congrArg (V c main_arg28) ?_
  funext a; apply Fin.ext
  match a with
  | ⟨0, _⟩ => show win2_17.index t (0 : Fin 1) * 128 + 1 * (j 0).val = (j 0).val; rw [e0]; omega

/-- What point t writes back is block t of the tail of the network on all edges. -/
theorem flushed18 (c : Dev nD) (t : Fin cfg2.N) :
    (dat2 (F := Ideal) V c).flushed 18 t = ((cfg2.win 18).blk t).view.read (Elt Ideal)
      (Cert.Net.tail (V c main_arg0) (V c main_v2_0) (V c main_v14) (V c main_arg14)
          (V c main_arg15) (V c main_arg16) (V c main_arg17) (V c main_arg18) (V c main_arg19) (V c main_arg20)
          (V c main_arg21) (V c main_arg22) (V c main_arg23) (V c main_arg24)
          (V c main_arg25) (V c main_arg26) (V c main_arg27) (V c main_arg28)) := by
  show (cfg2.win 18).cut (grid2.coords t) ((dat2 (F := Ideal) V c).after 18 t) = _
  rw [after2_18]
  unfold out2_18
  rw [View.canon_unit_zero hz2]
  simp only [View.ld_unit_zero (S := S4000x128) hz2, View.ld_unit_zero (S := S4000x64) hz2, View.ld_unit_zero (S := S64x128) hz2,
    View.ld_unit_zero (S := S128x128) hz2, View.ld_unit_zero (S := S128) hz1]
  rw [tail_of_rows (rowsAt t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t)
    (V c main_arg0) (V c main_v2_0) (V c main_v14) (V c main_arg14)
          (V c main_arg15) (V c main_arg16) (V c main_arg17) (V c main_arg18) (V c main_arg19) (V c main_arg20)
          (V c main_arg21) (V c main_arg22) (V c main_arg23) (V c main_arg24)
          (V c main_arg25) (V c main_arg26) (V c main_arg27) (V c main_arg28)
    (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t)]
  obtain ⟨-, -, -, -, -, -, e0, e1⟩ := idx_rows t
  funext j
  show Cert.Net.tail (V c main_arg0) (V c main_v2_0) (V c main_v14) (V c main_arg14)
          (V c main_arg15) (V c main_arg16) (V c main_arg17) (V c main_arg18) (V c main_arg19) (V c main_arg20)
          (V c main_arg21) (V c main_arg22) (V c main_arg23) (V c main_arg24)
          (V c main_arg25) (V c main_arg26) (V c main_arg27) (V c main_arg28) (ValueIdx.ix2 (rowsAt t (j 0)) (j 1))
    = Cert.Net.tail (V c main_arg0) (V c main_v2_0) (V c main_v14) (V c main_arg14)
          (V c main_arg15) (V c main_arg16) (V c main_arg17) (V c main_arg18) (V c main_arg19) (V c main_arg20)
          (V c main_arg21) (V c main_arg22) (V c main_arg23) (V c main_arg24)
          (V c main_arg25) (V c main_arg26) (V c main_arg27) (V c main_arg28) (((cfg2.win 18).blk t).view.emb j)
  refine congrArg _ ?_
  funext a; apply Fin.ext
  match a with
  | ⟨0, _⟩ => show 4000 * t.val + (j 0).val = win2_18.index t (0 : Fin 2) * 4000 + 1 * (j 0).val; rw [e0]; omega
  | ⟨1, _⟩ => show (j 1).val = win2_18.index t (1 : Fin 2) * 128 + 1 * (j 1).val; rw [e1]; omega

/-- An index of the result array is in point t's block iff each coordinate is in the block's range on its axis. -/
theorem mem_blk18 (t : Fin cfg2.N) (i : S200000x128.Idx) :
    i ∈ ((cfg2.win 18).blk t).view.set ↔ ∀ a : Fin 2, win2_18.index t a * S4000x128.size a ≤ (i a).val
      ∧ (i a).val < win2_18.index t a * S4000x128.size a + S4000x128.size a := by
  show i ∈ ((View.whole main_v15).slice (win2_18.rect t)).set ↔ _
  rw [View.set_slice_whole, Rect.mem_set_unit]
  exact Iff.rfl

/-- Every entry of the result array is written back: row r by point r / 4000. -/
theorem cover18 (i : S200000x128.Idx) :
    ∃ t : Fin cfg2.N, (cfg2.win 18).flush t = true ∧ i ∈ ((cfg2.win 18).blk t).view.set := by
  have hi0 : (i 0).val < 200000 := (i 0).isLt
  have hi1 : (i 1).val < 128 := (i 1).isLt
  obtain ⟨t, ht⟩ : ∃ t : Fin cfg2.N, t.val = (i 0).val / 4000 :=
    ⟨⟨(i 0).val / 4000, by rw [show cfg2.N = 50 from N_2]; omega⟩, rfl⟩
  obtain ⟨-, -, -, -, -, -, e0, e1⟩ := idx_rows t
  refine ⟨t, flush2_18 t, ?_⟩
  rw [mem_blk18]
  intro a
  match a with
  | ⟨0, _⟩ =>
    show win2_18.index t (0 : Fin 2) * 4000 ≤ (i 0).val ∧ (i 0).val < win2_18.index t (0 : Fin 2) * 4000 + 4000
    rw [e0, ht]; omega
  | ⟨1, _⟩ =>
    show win2_18.index t (1 : Fin 2) * 128 ≤ (i 1).val ∧ (i 1).val < win2_18.index t (1 : Fin 2) * 128 + 128
    rw [e1]; omega

end Region2

/-- After the third grid the result array holds the tail of the block on all edges. -/
theorem region2_tail (c : Dev nD) :
    (dat2 (F := Ideal) V c).arrAt 18 cfg2.N
      = Cert.Net.tail (V c main_arg0) (V c main_v2_0) (V c main_v14) (V c main_arg14)
          (V c main_arg15) (V c main_arg16) (V c main_arg17) (V c main_arg18) (V c main_arg19) (V c main_arg20)
          (V c main_arg21) (V c main_arg22) (V c main_arg23) (V c main_arg24)
          (V c main_arg25) (V c main_arg26) (V c main_arg27) (V c main_arg28) :=
  (dat2 (F := Ideal) V c).arrAt_eq_of_cover 18 _ (fun t _ => Region2.flushed18 V c t) Region2.cover18

end Cert.KernelIdeal.Blocks

end
-- ==== Proof.Chain.lean ====
/-
  The idealized kernel's result as one function of the launch arguments.

  The program's memory is followed through its six segments: two small matrix products on the host; the first grid
  (the kept and the passed-on messages of every edge); the gather of the passed-on messages by each triplet's first
  edge; the second grid (times the angular factor); the sum per edge by each triplet's second edge; the third grid
  (the tail of the block). Each grid's array is the whole-array function its blocks add up to (Region0 – Region2),
  each host stretch writes its own buffers and leaves the others, and an argument is never written at all.
-/
import proofs.«114219_j23149873725723_2_alg».proof.Proof.Gen.KernelIdeal.Frame
import proofs.«114219_j23149873725723_2_alg».proof.Proof.Net
import proofs.«114219_j23149873725723_2_alg».proof.Proof.Region0
import proofs.«114219_j23149873725723_2_alg».proof.Proof.Region1
import proofs.«114219_j23149873725723_2_alg».proof.Proof.Region2

set_option maxRecDepth 16384

noncomputable section

namespace Cert.KernelIdeal.Chain

open Cert.KernelIdeal Cert.KernelIdeal.Gen Cert.KernelIdeal.Blocks
open Idealize.ShloMosaic Idealize.ShloMosaic.TcCoe Idealize.SL.Sem Idealize.ShloMosaic.StableHlo
open Idealize.ShloMosaic.Pipeline (Dat Cfg Window)
open Cert.BlockRows Cert.Swish

variable (m : (ℓ : Loc nD τ sig) → Buf (Elt Ideal) ℓ) (ρ : Dev nD → PrngReg)

/-- The launch contents of an argument on core c. -/
abbrev arg (c : Dev nD) (b : Ref sig .tc) : Buf (Elt Ideal) ((c : Thread nD τ).loc b) := m ((c : Thread nD τ).loc b)

/-! ## The host stretches, over any contents W: what each writes, and that it leaves the other buffers read later -/

theorem keep0_arg0 (W : Valuation τ sig (Elt Ideal)) : after hostOps0 W (Proc.devRef .tc main_arg0) = W (Proc.devRef .tc main_arg0) := by after_results_simp
theorem keep0_arg1 (W : Valuation τ sig (Elt Ideal)) : after hostOps0 W (Proc.devRef .tc main_arg1) = W (Proc.devRef .tc main_arg1) := by after_results_simp
theorem keep0_arg2 (W : Valuation τ sig (Elt Ideal)) : after hostOps0 W (Proc.devRef .tc main_arg2) = W (Proc.devRef .tc main_arg2) := by after_results_simp
theorem keep0_arg3 (W : Valuation τ sig (Elt Ideal)) : after hostOps0 W (Proc.devRef .tc main_arg3) = W (Proc.devRef .tc main_arg3) := by after_results_simp
theorem keep0_arg4 (W : Valuation τ sig (Elt Ideal)) : after hostOps0 W (Proc.devRef .tc main_arg4) = W (Proc.devRef .tc main_arg4) := by after_results_simp
theorem keep0_arg9 (W : Valuation τ sig (Elt Ideal)) : after hostOps0 W (Proc.devRef .tc main_arg9) = W (Proc.devRef .tc main_arg9) := by after_results_simp
theorem keep0_arg10 (W : Valuation τ sig (Elt Ideal)) : after hostOps0 W (Proc.devRef .tc main_arg10) = W (Proc.devRef .tc main_arg10) := by after_results_simp
theorem keep0_arg11 (W : Valuation τ sig (Elt Ideal)) : after hostOps0 W (Proc.devRef .tc main_arg11) = W (Proc.devRef .tc main_arg11) := by after_results_simp
theorem keep0_arg12 (W : Valuation τ sig (Elt Ideal)) : after hostOps0 W (Proc.devRef .tc main_arg12) = W (Proc.devRef .tc main_arg12) := by after_results_simp
theorem keep0_arg13 (W : Valuation τ sig (Elt Ideal)) : after hostOps0 W (Proc.devRef .tc main_arg13) = W (Proc.devRef .tc main_arg13) := by after_results_simp

/-- The folded radial table: the product of the two small radial tables. -/
theorem host0_v0 (W : Valuation τ sig (Elt Ideal)) :
    after hostOps0 W (Proc.devRef .tc main_v0) = propagate (W (Proc.devRef .tc main_arg5)) (W (Proc.devRef .tc main_arg6)) := by
  after_results_simp
  rfl

/-- The folded angular table. -/
theorem host0_v1 (W : Valuation τ sig (Elt Ideal)) :
    after hostOps0 W (Proc.devRef .tc main_v1) = propagate (W (Proc.devRef .tc main_arg7)) (W (Proc.devRef .tc main_arg8)) := by
  after_results_simp
  rfl

theorem keep1_arg2 (W : Valuation τ sig (Elt Ideal)) : after hostOps1 W (Proc.devRef .tc main_arg2) = W (Proc.devRef .tc main_arg2) := by after_results_simp
theorem keep1_arg4 (W : Valuation τ sig (Elt Ideal)) : after hostOps1 W (Proc.devRef .tc main_arg4) = W (Proc.devRef .tc main_arg4) := by after_results_simp
theorem keep1_v1 (W : Valuation τ sig (Elt Ideal)) : after hostOps1 W (Proc.devRef .tc main_v1) = W (Proc.devRef .tc main_v1) := by after_results_simp
theorem keep1_v2_0 (W : Valuation τ sig (Elt Ideal)) : after hostOps1 W (Proc.devRef .tc main_v2_0) = W (Proc.devRef .tc main_v2_0) := by after_results_simp

/-- The gathered messages: rows of the passed-on table picked by the first index array. -/
theorem host1_v9 (W : Valuation τ sig (Elt Ideal)) :
    after hostOps1 W (Proc.devRef .tc main_v9)
      = Cert.Net.gathered (W (Proc.devRef .tc main_v2_1)) (W (Proc.devRef .tc main_arg3)) := by
  after_results_simp
  rfl

theorem keep2_v2_0 (W : Valuation τ sig (Elt Ideal)) : after hostOps2 W (Proc.devRef .tc main_v2_0) = W (Proc.devRef .tc main_v2_0) := by after_results_simp

/-- The sums per edge: the triplet messages added up by the second index array. -/
theorem host2_v14 (W : Valuation τ sig (Elt Ideal)) :
    after hostOps2 W (Proc.devRef .tc main_v14)
      = Cert.Net.segSum (W (Proc.devRef .tc main_arg4)) (W (Proc.devRef .tc main_v10)) := by
  after_results_simp
  rfl

/-! ## Region 0: the first grid's two arrays -/

theorem V1_arg0 (c : Dev nD) : V1 m ρ c main_arg0 = arg m c main_arg0 := keep0_arg0 _
theorem V1_arg1 (c : Dev nD) : V1 m ρ c main_arg1 = arg m c main_arg1 := keep0_arg1 _
theorem V1_arg9 (c : Dev nD) : V1 m ρ c main_arg9 = arg m c main_arg9 := keep0_arg9 _
theorem V1_arg10 (c : Dev nD) : V1 m ρ c main_arg10 = arg m c main_arg10 := keep0_arg10 _
theorem V1_arg11 (c : Dev nD) : V1 m ρ c main_arg11 = arg m c main_arg11 := keep0_arg11 _
theorem V1_arg12 (c : Dev nD) : V1 m ρ c main_arg12 = arg m c main_arg12 := keep0_arg12 _
theorem V1_arg13 (c : Dev nD) : V1 m ρ c main_arg13 = arg m c main_arg13 := keep0_arg13 _
theorem V1_v0 (c : Dev nD) : V1 m ρ c main_v0 = propagate (arg m c main_arg5) (arg m c main_arg6) := host0_v0 _

/-- The kept messages after the first grid. -/
theorem W2_kept (c : Dev nD) :
    W2 m ρ c (Proc.devRef .tc main_v2_0) = Cert.Net.dense (arg m c main_arg0) (arg m c main_arg9) (arg m c main_arg10) := by
  refine (W2_arr m ρ c 8).trans ((region0_kept (V1 m ρ) c).trans ?_)
  rw [V1_arg0 m ρ c, V1_arg9 m ρ c, V1_arg10 m ρ c]

/-- The passed-on messages after the first grid, the radial factor with its two tables multiplied first. -/
theorem W2_down (c : Dev nD) :
    W2 m ρ c (Proc.devRef .tc main_v2_1)
      = Cert.Net.down (arg m c main_arg0) (arg m c main_arg11) (arg m c main_arg12) (Cert.Net.basisFolded (arg m c main_arg1) (arg m c main_arg5) (arg m c main_arg6)) (arg m c main_arg13) := by
  refine (W2_arr m ρ c 9).trans ((region0_down (V1 m ρ) c).trans ?_)
  rw [V1_arg0 m ρ c, V1_arg11 m ρ c, V1_arg12 m ρ c, V1_arg1 m ρ c, V1_v0 m ρ c, V1_arg13 m ρ c]
  rfl

theorem W2_arg2 (c : Dev nD) : W2 m ρ c (Proc.devRef .tc main_arg2) = arg m c main_arg2 :=
  (W2_of_ne m ρ c main_arg2 (by decide)).trans (keep0_arg2 _)
theorem W2_arg3 (c : Dev nD) : W2 m ρ c (Proc.devRef .tc main_arg3) = arg m c main_arg3 :=
  (W2_of_ne m ρ c main_arg3 (by decide)).trans (keep0_arg3 _)
theorem W2_arg4 (c : Dev nD) : W2 m ρ c (Proc.devRef .tc main_arg4) = arg m c main_arg4 :=
  (W2_of_ne m ρ c main_arg4 (by decide)).trans (keep0_arg4 _)
theorem W2_v1 (c : Dev nD) : W2 m ρ c (Proc.devRef .tc main_v1) = propagate (arg m c main_arg7) (arg m c main_arg8) :=
  (W2_of_ne m ρ c main_v1 (by decide)).trans (host0_v1 _)

/-! ## Region 1: the second grid's array -/

/-- The triplet messages after the second grid, the angular factor with its two tables multiplied first. -/
theorem W4_msg (c : Dev nD) :
    W4 m ρ c (Proc.devRef .tc main_v10)
      = mulf (Cert.Net.gathered (Cert.Net.down (arg m c main_arg0) (arg m c main_arg11) (arg m c main_arg12) (Cert.Net.basisFolded (arg m c main_arg1) (arg m c main_arg5) (arg m c main_arg6)) (arg m c main_arg13)) (arg m c main_arg3))
          (Cert.Net.basisFolded (arg m c main_arg2) (arg m c main_arg7) (arg m c main_arg8)) := by
  refine (W4_arr m ρ c 3).trans ((region1_msg (V3 m ρ) c).trans ?_)
  have e9 : V3 m ρ c main_v9 = Cert.Net.gathered (W2 m ρ c (Proc.devRef .tc main_v2_1)) (W2 m ρ c (Proc.devRef .tc main_arg3)) := host1_v9 _
  have e2 : V3 m ρ c main_arg2 = arg m c main_arg2 := (keep1_arg2 _).trans (W2_arg2 m ρ c)
  have e1 : V3 m ρ c main_v1 = propagate (arg m c main_arg7) (arg m c main_arg8) := (keep1_v1 _).trans (W2_v1 m ρ c)
  rw [e9, e2, e1, W2_down m ρ c, W2_arg3 m ρ c]
  rfl

theorem W4_arg4 (c : Dev nD) : W4 m ρ c (Proc.devRef .tc main_arg4) = arg m c main_arg4 :=
  (W4_of_ne m ρ c main_arg4 (by decide)).trans ((keep1_arg4 _).trans (W2_arg4 m ρ c))
theorem W4_kept (c : Dev nD) :
    W4 m ρ c (Proc.devRef .tc main_v2_0) = Cert.Net.dense (arg m c main_arg0) (arg m c main_arg9) (arg m c main_arg10) :=
  (W4_of_ne m ρ c main_v2_0 (by decide)).trans ((keep1_v2_0 _).trans (W2_kept m ρ c))

/-! ## Region 2: the third grid's array, the result -/

/-- An input array of the third grid holds at its entry what it holds at the end of the run. -/
theorem V5_of_W6 (c : Dev nD) (w : Fin cfg2.W) (hw : (cfg2.win w).isOut = false) :
    V5 m ρ c (Pipeline.arrRef spec2 w) = W6 m ρ c (Proc.devRef .tc (Pipeline.arrRef spec2 w)) :=
  ((W6_arr m ρ c w).trans (((dat2 (V5 m ρ) c).arrAt_in w hw _).trans (A_eq2 (V5 m ρ) c w))).symm

theorem V5_arg0 (c : Dev nD) : V5 m ρ c main_arg0 = arg m c main_arg0 := (V5_of_W6 m ρ c 0 rfl).trans (W6_main_arg0 m ρ c)
theorem V5_arg14 (c : Dev nD) : V5 m ρ c main_arg14 = arg m c main_arg14 := (V5_of_W6 m ρ c 3 rfl).trans (W6_main_arg14 m ρ c)
theorem V5_arg15 (c : Dev nD) : V5 m ρ c main_arg15 = arg m c main_arg15 := (V5_of_W6 m ρ c 4 rfl).trans (W6_main_arg15 m ρ c)
theorem V5_arg16 (c : Dev nD) : V5 m ρ c main_arg16 = arg m c main_arg16 := (V5_of_W6 m ρ c 5 rfl).trans (W6_main_arg16 m ρ c)
theorem V5_arg17 (c : Dev nD) : V5 m ρ c main_arg17 = arg m c main_arg17 := (V5_of_W6 m ρ c 6 rfl).trans (W6_main_arg17 m ρ c)
theorem V5_arg18 (c : Dev nD) : V5 m ρ c main_arg18 = arg m c main_arg18 := (V5_of_W6 m ρ c 7 rfl).trans (W6_main_arg18 m ρ c)
theorem V5_arg19 (c : Dev nD) : V5 m ρ c main_arg19 = arg m c main_arg19 := (V5_of_W6 m ρ c 8 rfl).trans (W6_main_arg19 m ρ c)
theorem V5_arg20 (c : Dev nD) : V5 m ρ c main_arg20 = arg m c main_arg20 := (V5_of_W6 m ρ c 9 rfl).trans (W6_main_arg20 m ρ c)
theorem V5_arg21 (c : Dev nD) : V5 m ρ c main_arg21 = arg m c main_arg21 := (V5_of_W6 m ρ c 10 rfl).trans (W6_main_arg21 m ρ c)
theorem V5_arg22 (c : Dev nD) : V5 m ρ c main_arg22 = arg m c main_arg22 := (V5_of_W6 m ρ c 11 rfl).trans (W6_main_arg22 m ρ c)
theorem V5_arg23 (c : Dev nD) : V5 m ρ c main_arg23 = arg m c main_arg23 := (V5_of_W6 m ρ c 12 rfl).trans (W6_main_arg23 m ρ c)
theorem V5_arg24 (c : Dev nD) : V5 m ρ c main_arg24 = arg m c main_arg24 := (V5_of_W6 m ρ c 13 rfl).trans (W6_main_arg24 m ρ c)
theorem V5_arg25 (c : Dev nD) : V5 m ρ c main_arg25 = arg m c main_arg25 := (V5_of_W6 m ρ c 14 rfl).trans (W6_main_arg25 m ρ c)
theorem V5_arg26 (c : Dev nD) : V5 m ρ c main_arg26 = arg m c main_arg26 := (V5_of_W6 m ρ c 15 rfl).trans (W6_main_arg26 m ρ c)
theorem V5_arg27 (c : Dev nD) : V5 m ρ c main_arg27 = arg m c main_arg27 := (V5_of_W6 m ρ c 16 rfl).trans (W6_main_arg27 m ρ c)
theorem V5_arg28 (c : Dev nD) : V5 m ρ c main_arg28 = arg m c main_arg28 := (V5_of_W6 m ρ c 17 rfl).trans (W6_main_arg28 m ρ c)

theorem V5_kept (c : Dev nD) : V5 m ρ c main_v2_0 = Cert.Net.dense (arg m c main_arg0) (arg m c main_arg9) (arg m c main_arg10) :=
  (keep2_v2_0 _).trans (W4_kept m ρ c)

theorem V5_sum (c : Dev nD) :
    V5 m ρ c main_v14
      = Cert.Net.segSum (arg m c main_arg4) (mulf (Cert.Net.gathered (Cert.Net.down (arg m c main_arg0) (arg m c main_arg11) (arg m c main_arg12) (Cert.Net.basisFolded (arg m c main_arg1) (arg m c main_arg5) (arg m c main_arg6)) (arg m c main_arg13)) (arg m c main_arg3))
          (Cert.Net.basisFolded (arg m c main_arg2) (arg m c main_arg7) (arg m c main_arg8))) := by
  refine (host2_v14 _).trans ?_
  rw [W4_arg4 m ρ c, W4_msg m ρ c]

/-- The tail of equal arrays is equal. -/
theorem tail_congr {X X' : Cert.Net.R Cert.Net.E 128} {Xji Xji' : Cert.Net.R Cert.Net.E 128} {Xsum Xsum' : Cert.Net.R Cert.Net.E 64} {Wup Wup' : Cert.Net.R 64 128} {Wb1 Wb1' : Cert.Net.R 128 128} {bb1 bb1' : Cert.Net.V 128} {Wb2 Wb2' : Cert.Net.R 128 128} {bb2 bb2' : Cert.Net.V 128} {Wfin Wfin' : Cert.Net.R 128 128} {bfin bfin' : Cert.Net.V 128} {Wa11 Wa11' : Cert.Net.R 128 128} {ba11 ba11' : Cert.Net.V 128} {Wa12 Wa12' : Cert.Net.R 128 128} {ba12 ba12' : Cert.Net.V 128} {Wa21 Wa21' : Cert.Net.R 128 128} {ba21 ba21' : Cert.Net.V 128} {Wa22 Wa22' : Cert.Net.R 128 128} {ba22 ba22' : Cert.Net.V 128}
    (h0 : X = X') (h1 : Xji = Xji') (h2 : Xsum = Xsum') (h3 : Wup = Wup') (h4 : Wb1 = Wb1') (h5 : bb1 = bb1') (h6 : Wb2 = Wb2') (h7 : bb2 = bb2') (h8 : Wfin = Wfin') (h9 : bfin = bfin') (h10 : Wa11 = Wa11') (h11 : ba11 = ba11') (h12 : Wa12 = Wa12') (h13 : ba12 = ba12') (h14 : Wa21 = Wa21') (h15 : ba21 = ba21') (h16 : Wa22 = Wa22') (h17 : ba22 = ba22') :
    Cert.Net.tail X Xji Xsum Wup Wb1 bb1 Wb2 bb2 Wfin bfin Wa11 ba11 Wa12 ba12 Wa21 ba21 Wa22 ba22 = Cert.Net.tail X' Xji' Xsum' Wup' Wb1' bb1' Wb2' bb2' Wfin' bfin' Wa11' ba11' Wa12' ba12' Wa21' ba21' Wa22' ba22' := by
  subst h0 h1 h2 h3 h4 h5 h6 h7 h8 h9 h10 h11 h12 h13 h14 h15 h16 h17
  rfl

/-- THE KERNEL'S VALUE: after the run the result buffer holds the interaction block of the launch arguments, each
    basis factor with its two small tables multiplied first. -/
theorem kernel_value (c : Dev nD) :
    W6 m ρ c (Proc.devRef .tc main_v15)
      = Cert.Net.net (Cert.Net.basisFolded (arg m c main_arg1) (arg m c main_arg5) (arg m c main_arg6)) (Cert.Net.basisFolded (arg m c main_arg2) (arg m c main_arg7) (arg m c main_arg8))
          (arg m c main_arg0) (arg m c main_arg3) (arg m c main_arg4) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) := by
  refine (W6_arr m ρ c 18).trans ((region2_tail (V5 m ρ) c).trans ?_)
  exact tail_congr (V5_arg0 m ρ c) (V5_kept m ρ c) (V5_sum m ρ c) (V5_arg14 m ρ c) (V5_arg15 m ρ c) (V5_arg16 m ρ c) (V5_arg17 m ρ c) (V5_arg18 m ρ c) (V5_arg19 m ρ c) (V5_arg20 m ρ c) (V5_arg21 m ρ c) (V5_arg22 m ρ c) (V5_arg23 m ρ c) (V5_arg24 m ρ c) (V5_arg25 m ρ c) (V5_arg26 m ρ c) (V5_arg27 m ρ c) (V5_arg28 m ρ c)

end Cert.KernelIdeal.Chain

end
-- ==== Proof.RefValue.lean ====
/-
  The reference's value: its run ends with the result buffer at the interaction block of the launch arguments,
  the two basis factors multiplied left to right, and every argument buffer as it was.

  The reference is a straight line of 161 whole-array operations. It is read one stretch at a time, each stretch over
  arbitrary contents V of the buffers it reads: a swish layer x ↦ swish (x · W + b) (the host spells swish y as
  y · 1/(1 + e^(−y))), the messages to pass on, the rows picked by each triplet's first edge times the angular
  factor and summed per second edge, and the residual pairs of layers that follow. A buffer that a stretch does not
  write comes through it unchanged. Composing the stretches in order gives the block as a function of the arguments.
-/
import proofs.«114219_j23149873725723_2_alg».proof.Proof.RefRunFold
import proofs.«114219_j23149873725723_2_alg».proof.Proof.Net

noncomputable section

namespace Cert.ReferenceIdeal.RefValue

open Cert.ReferenceIdeal Cert.ReferenceIdeal.Gen Idealize.ShloMosaic Idealize.ShloMosaic.TcCoe Idealize.SL.Sem
open Idealize.ShloMosaic.StableHlo
open Cert.BlockRows Cert.BiasRows Cert.Swish

/-- The fold over two stretches of operations run one after the other. -/
theorem after_append (a b : List (HloOp τ sig (Elt Ideal))) (V : Valuation τ sig (Elt Ideal)) :
    after (a ++ b) V = after b (after a V) := by
  induction a generalizing V with
  | nil => rfl
  | cons op l ih => simp only [List.cons_append, after_cons, ih]

/-- The host's spelling of swish at any shape: y times 1 / (1 + exp (−y)), each one a rank-zero constant broadcast
    to the array. -/
theorem swish_host_keyed {s : Shape} (h h' : (⟨0, ![]⟩ : Shape).BroadcastsInDim s ![]) (Y : FVec Ideal s .f32) :
    mulf Y (Host.divf (no_index (broadcastInDim s ![] h (constant (F := Ideal) ⟨0, ![]⟩ .f32 0x3F800000#32)))
        (addf (no_index (broadcastInDim s ![] h' (constant (F := Ideal) ⟨0, ![]⟩ .f32 0x3F800000#32))) (Host.exp (Host.negf Y))))
      = swish Y := swish_host h h' Y

/-! The printed dimension records of the stretch with the gather and the scatter are the specification's. -/
theorem dot_E_64_128 : dot_S200000x64_S64x128_S200000x128_1_0_0_1_n_n = DotDims.plain 200000 64 128 := rfl
theorem dot_T_42_8 : dot_S2000000x42_S42x8_S2000000x8_1_0_0_1_n_n = DotDims.plain 2000000 42 8 := rfl
theorem dot_T_8_64 : dot_S2000000x8_S8x64_S2000000x64_1_0_0_1_n_n = DotDims.plain 2000000 8 64 := rfl
theorem gather_eq : gather_S200000x64_S2000000x1_S2000000x64_1_0_n_n_0_1_164 = Cert.Net.gatherDims := rfl
theorem scatter_eq : scatter_S200000x64_S2000000x1_S2000000x64_1_0_0_1 = Cert.Net.scatterDims := rfl

/-! ## The stretch from the messages to pass on to the sum per edge, cut once more

Its first seventeen operations (index words to the product with W_up) and the swish after them. -/

section Cut

variable {F : FTy → Type} [FloatOps F]

/-- The stretch from the index words to the product with W_up: the start indices, the gather, the angular factor, the sum per edge. -/
abbrev seg2c1 : List (HloOp τ sig (Elt F)) :=
  [ nullary main_c (constantI S_ 32 0#32),
    unary main_c main_v15 (broadcastInDim S2000000 ![] bcast_S_S2000000 : (⟨S_, .i32⟩ : BufTy).Contents (Elt F) → (⟨S2000000, .i32⟩ : BufTy).Contents (Elt F)),
    binary main_arg3 main_v15 main_v16 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 200000#32),
    unary main_c_0 main_v17 (broadcastInDim S2000000 ![] bcast_S_S2000000 : (⟨S_, .i32⟩ : BufTy).Contents (Elt F) → (⟨S2000000, .i32⟩ : BufTy).Contents (Elt F)),
    binary main_arg3 main_v17 main_v18 (addi : (⟨S2000000, .i32⟩ : BufTy).Contents (Elt F) → (⟨S2000000, .i32⟩ : BufTy).Contents (Elt F) → (⟨S2000000, .i32⟩ : BufTy).Contents (Elt F)),
    ternary main_v16 main_v18 main_arg3 main_v19 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v19 main_v20 (broadcastInDim S2000000x1 ![0] bcast_S2000000_S2000000x1_0 : (⟨S2000000, .i32⟩ : BufTy).Contents (Elt F) → (⟨S2000000x1, .i32⟩ : BufTy).Contents (Elt F)),
    binary main_v14 main_v20 main_v21 ((fun x i => Host.gather gather_S200000x64_S2000000x1_S2000000x64_1_0_n_n_0_1_164 x i) : (⟨S200000x64, .f32⟩ : BufTy).Contents (Elt F) → (⟨S2000000x1, .i32⟩ : BufTy).Contents (Elt F) → (⟨S2000000x64, .f32⟩ : BufTy).Contents (Elt F)),
    binary main_arg2 main_arg7 main_v22 ((fun l r => Host.dotGeneral dot_S2000000x42_S42x8_S2000000x8_1_0_0_1_n_n none l r) : (⟨S2000000x42, .f32⟩ : BufTy).Contents (Elt F) → (⟨S42x8, .f32⟩ : BufTy).Contents (Elt F) → (⟨S2000000x8, .f32⟩ : BufTy).Contents (Elt F)),
    binary main_v22 main_arg8 main_v23 ((fun l r => Host.dotGeneral dot_S2000000x8_S8x64_S2000000x64_1_0_0_1_n_n none l r) : (⟨S2000000x8, .f32⟩ : BufTy).Contents (Elt F) → (⟨S8x64, .f32⟩ : BufTy).Contents (Elt F) → (⟨S2000000x64, .f32⟩ : BufTy).Contents (Elt F)),
    binary main_v21 main_v23 main_v24 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v25 (broadcastInDim S200000x64 ![] bcast_S_S200000x64 : (⟨S_, .f32⟩ : BufTy).Contents (Elt F) → (⟨S200000x64, .f32⟩ : BufTy).Contents (Elt F)),
    unary main_arg4 main_v26 (broadcastInDim S2000000x1 ![0] bcast_S2000000_S2000000x1_0 : (⟨S2000000, .i32⟩ : BufTy).Contents (Elt F) → (⟨S2000000x1, .i32⟩ : BufTy).Contents (Elt F)),
    ternary main_v25 main_v26 main_v24 main_v27 ((fun x i u => Host.scatterAdd scatter_S200000x64_S2000000x1_S2000000x64_1_0_0_1 x i u) : (⟨S200000x64, .f32⟩ : BufTy).Contents (Elt F) → (⟨S2000000x1, .i32⟩ : BufTy).Contents (Elt F) → (⟨S2000000x64, .f32⟩ : BufTy).Contents (Elt F) → (⟨S200000x64, .f32⟩ : BufTy).Contents (Elt F)),
    binary main_v27 main_arg14 main_v28 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)) ]

/-- The swish that follows it. -/
abbrev seg2c2 : List (HloOp τ sig (Elt F)) :=
  [ TRef.unary (TRef.of (T := ⟨S200000x128, .f32⟩) main_v28) (TRef.of (T := ⟨S200000x128, .f32⟩) main_call3_v0) Host.negf,
    TRef.unary (TRef.of (T := ⟨S200000x128, .f32⟩) main_call3_v0) (TRef.of (T := ⟨S200000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S200000x128, .f32⟩) main_call3_v2) (broadcastInDim S200000x128 ![] bcast_S_S200000x128),
    TRef.binary (TRef.of (T := ⟨S200000x128, .f32⟩) main_call3_v2) (TRef.of (T := ⟨S200000x128, .f32⟩) main_call3_v1) (TRef.of (T := ⟨S200000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S200000x128, .f32⟩) main_call3_v4) (broadcastInDim S200000x128 ![] bcast_S_S200000x128),
    TRef.binary (TRef.of (T := ⟨S200000x128, .f32⟩) main_call3_v4) (TRef.of (T := ⟨S200000x128, .f32⟩) main_call3_v3) (TRef.of (T := ⟨S200000x128, .f32⟩) main_call3_v5) Host.divf,
    TRef.binary (TRef.of (T := ⟨S200000x128, .f32⟩) main_v28) (TRef.of (T := ⟨S200000x128, .f32⟩) main_call3_v5) (TRef.of (T := ⟨S200000x128, .f32⟩) main_v29) mulf ]

theorem seg2c_eq : (RunFold.seg2c : List (HloOp τ sig (Elt F))) = seg2c1 ++ seg2c2 := rfl

end Cut

/-! ## What each stretch leaves alone -/

/-- The buffers that stretch `seg1` writes. -/
abbrev seg1_W : List (Ref sig .tc) := [main_v0, main_v1, main_v2, main_v3, main_call0_v0, main_call0_v1, main_call0_cst, main_call0_v2, main_call0_v3, main_call0_cst_0, main_call0_v4, main_call0_v5, main_v4]
theorem seg1_writes : ((RunFold.seg1 (F := Ideal)) : List (HloOp τ sig (Elt Ideal))).Forall fun op =>
    op.writes ⊆ (seg1_W.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg1` does not write keeps its contents through it. -/
theorem seg1_keep (V : Valuation τ sig (Elt Ideal)) (r : Ref sig .tc) (h : r ∉ seg1_W) :
    after (RunFold.seg1 (F := Ideal)) V (Proc.devRef .tc r) = V (Proc.devRef .tc r) :=
  after_of_writes_sub _ _ seg1_writes h

/-- The buffers that stretch `seg2a` writes. -/
abbrev seg2a_W : List (Ref sig .tc) := [main_v5, main_v6, main_v7, main_v8, main_call1_v0, main_call1_v1, main_call1_cst, main_call1_v2, main_call1_v3, main_call1_cst_0, main_call1_v4, main_call1_v5, main_v9]
theorem seg2a_writes : ((RunFold.seg2a (F := Ideal)) : List (HloOp τ sig (Elt Ideal))).Forall fun op =>
    op.writes ⊆ (seg2a_W.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg2a` does not write keeps its contents through it. -/
theorem seg2a_keep (V : Valuation τ sig (Elt Ideal)) (r : Ref sig .tc) (h : r ∉ seg2a_W) :
    after (RunFold.seg2a (F := Ideal)) V (Proc.devRef .tc r) = V (Proc.devRef .tc r) :=
  after_of_writes_sub _ _ seg2a_writes h

/-- The buffers that stretch `seg2b` writes. -/
abbrev seg2b_W : List (Ref sig .tc) := [main_v10, main_v11, main_v12, main_v13, main_call2_v0, main_call2_v1, main_call2_cst, main_call2_v2, main_call2_v3, main_call2_cst_0, main_call2_v4, main_call2_v5, main_v14]
theorem seg2b_writes : ((RunFold.seg2b (F := Ideal)) : List (HloOp τ sig (Elt Ideal))).Forall fun op =>
    op.writes ⊆ (seg2b_W.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg2b` does not write keeps its contents through it. -/
theorem seg2b_keep (V : Valuation τ sig (Elt Ideal)) (r : Ref sig .tc) (h : r ∉ seg2b_W) :
    after (RunFold.seg2b (F := Ideal)) V (Proc.devRef .tc r) = V (Proc.devRef .tc r) :=
  after_of_writes_sub _ _ seg2b_writes h

/-- The buffers that stretch `seg2` writes. -/
abbrev seg2_W : List (Ref sig .tc) := [main_v5, main_v6, main_v7, main_v8, main_call1_v0, main_call1_v1, main_call1_cst, main_call1_v2, main_call1_v3, main_call1_cst_0, main_call1_v4, main_call1_v5, main_v9, main_v10, main_v11, main_v12, main_v13, main_call2_v0, main_call2_v1, main_call2_cst, main_call2_v2, main_call2_v3, main_call2_cst_0, main_call2_v4, main_call2_v5, main_v14, main_c, main_v15, main_v16, main_c_0, main_v17, main_v18, main_v19, main_v20, main_v21, main_v22, main_v23, main_v24, main_cst, main_v25, main_v26, main_v27, main_v28, main_call3_v0, main_call3_v1, main_call3_cst, main_call3_v2, main_call3_v3, main_call3_cst_0, main_call3_v4, main_call3_v5, main_v29]
theorem seg2_writes : ((RunFold.seg2 (F := Ideal)) : List (HloOp τ sig (Elt Ideal))).Forall fun op =>
    op.writes ⊆ (seg2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg2` does not write keeps its contents through it. -/
theorem seg2_keep (V : Valuation τ sig (Elt Ideal)) (r : Ref sig .tc) (h : r ∉ seg2_W) :
    after (RunFold.seg2 (F := Ideal)) V (Proc.devRef .tc r) = V (Proc.devRef .tc r) :=
  after_of_writes_sub _ _ seg2_writes h

/-- The buffers that stretch `seg3` writes. -/
abbrev seg3_W : List (Ref sig .tc) := [main_v30, main_v31, main_v32, main_v33, main_v34, main_call4_v0, main_call4_v1, main_call4_cst, main_call4_v2, main_call4_v3, main_call4_cst_0, main_call4_v4, main_call4_v5, main_v35, main_v36, main_v37, main_v38, main_v39, main_call5_v0, main_call5_v1, main_call5_cst, main_call5_v2, main_call5_v3, main_call5_cst_0, main_call5_v4, main_call5_v5, main_v40, main_v41]
theorem seg3_writes : ((RunFold.seg3 (F := Ideal)) : List (HloOp τ sig (Elt Ideal))).Forall fun op =>
    op.writes ⊆ (seg3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg3` does not write keeps its contents through it. -/
theorem seg3_keep (V : Valuation τ sig (Elt Ideal)) (r : Ref sig .tc) (h : r ∉ seg3_W) :
    after (RunFold.seg3 (F := Ideal)) V (Proc.devRef .tc r) = V (Proc.devRef .tc r) :=
  after_of_writes_sub _ _ seg3_writes h

/-- The buffers that stretch `seg4` writes. -/
abbrev seg4_W : List (Ref sig .tc) := [main_v42, main_v43, main_v44, main_v45, main_call6_v0, main_call6_v1, main_call6_cst, main_call6_v2, main_call6_v3, main_call6_cst_0, main_call6_v4, main_call6_v5, main_v46, main_v47]
theorem seg4_writes : ((RunFold.seg4 (F := Ideal)) : List (HloOp τ sig (Elt Ideal))).Forall fun op =>
    op.writes ⊆ (seg4_W.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg4` does not write keeps its contents through it. -/
theorem seg4_keep (V : Valuation τ sig (Elt Ideal)) (r : Ref sig .tc) (h : r ∉ seg4_W) :
    after (RunFold.seg4 (F := Ideal)) V (Proc.devRef .tc r) = V (Proc.devRef .tc r) :=
  after_of_writes_sub _ _ seg4_writes h

/-- The buffers that stretch `seg5` writes. -/
abbrev seg5_W : List (Ref sig .tc) := [main_v48, main_v49, main_v50, main_v51, main_call7_v0, main_call7_v1, main_call7_cst, main_call7_v2, main_call7_v3, main_call7_cst_0, main_call7_v4, main_call7_v5, main_v52, main_v53, main_v54, main_v55, main_v56, main_call8_v0, main_call8_v1, main_call8_cst, main_call8_v2, main_call8_v3, main_call8_cst_0, main_call8_v4, main_call8_v5, main_v57, main_v58]
theorem seg5_writes : ((RunFold.seg5 (F := Ideal)) : List (HloOp τ sig (Elt Ideal))).Forall fun op =>
    op.writes ⊆ (seg5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg5` does not write keeps its contents through it. -/
theorem seg5_keep (V : Valuation τ sig (Elt Ideal)) (r : Ref sig .tc) (h : r ∉ seg5_W) :
    after (RunFold.seg5 (F := Ideal)) V (Proc.devRef .tc r) = V (Proc.devRef .tc r) :=
  after_of_writes_sub _ _ seg5_writes h

/-- The buffers that stretch `seg6` writes. -/
abbrev seg6_W : List (Ref sig .tc) := [main_v59, main_v60, main_v61, main_v62, main_call9_v0, main_call9_v1, main_call9_cst, main_call9_v2, main_call9_v3, main_call9_cst_0, main_call9_v4, main_call9_v5, main_v63, main_v64, main_v65, main_v66, main_v67, main_call10_v0, main_call10_v1, main_call10_cst, main_call10_v2, main_call10_v3, main_call10_cst_0, main_call10_v4, main_call10_v5, main_v68, main_v69]
theorem seg6_writes : ((RunFold.seg6 (F := Ideal)) : List (HloOp τ sig (Elt Ideal))).Forall fun op =>
    op.writes ⊆ (seg6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer that stretch `seg6` does not write keeps its contents through it. -/
theorem seg6_keep (V : Valuation τ sig (Elt Ideal)) (r : Ref sig .tc) (h : r ∉ seg6_W) :
    after (RunFold.seg6 (F := Ideal)) V (Proc.devRef .tc r) = V (Proc.devRef .tc r) :=
  after_of_writes_sub _ _ seg6_writes h

/-! ## What each stretch computes, over arbitrary contents of the buffers it reads -/

/-- The messages kept on each edge: a swish layer of x. -/
theorem seg1_value (V : Valuation τ sig (Elt Ideal)) :
    after (RunFold.seg1 (F := Ideal)) V (Proc.devRef .tc main_v4)
      = Cert.Net.dense (V (Proc.devRef .tc main_arg0)) (V (Proc.devRef .tc main_arg9)) (V (Proc.devRef .tc main_arg10)) := by
  after_results_simp
  simp only [TRef.toBuf, TRef.ofBuf, cast_cast, cast_eq]
  simp only [swish_host_keyed]
  rfl

/-- The second swish layer of x. -/
theorem seg2a_value (V : Valuation τ sig (Elt Ideal)) :
    after (RunFold.seg2a (F := Ideal)) V (Proc.devRef .tc main_v9)
      = Cert.Net.dense (V (Proc.devRef .tc main_arg0)) (V (Proc.devRef .tc main_arg11)) (V (Proc.devRef .tc main_arg12)) := by
  after_results_simp
  simp only [TRef.toBuf, TRef.ofBuf, cast_cast, cast_eq]
  simp only [swish_host_keyed]
  rfl

/-- That layer times the radial factor, projected down, swish: the messages to pass on. -/
theorem seg2b_value (V : Valuation τ sig (Elt Ideal)) :
    after (RunFold.seg2b (F := Ideal)) V (Proc.devRef .tc main_v14)
      = swish (propagate (mulf (V (Proc.devRef .tc main_v9) : Cert.Net.R 200000 128) (Cert.Net.basisChained (V (Proc.devRef .tc main_arg1)) (V (Proc.devRef .tc main_arg5)) (V (Proc.devRef .tc main_arg6)))) (V (Proc.devRef .tc main_arg13))) := by
  after_results_simp
  simp only [TRef.toBuf, TRef.ofBuf, cast_cast, cast_eq]
  simp only [swish_host_keyed]
  rfl

/-- Rows of the messages picked by the first edge's index word, times the angular factor, summed per second edge, times W_up. -/
theorem seg2c1_value (V : Valuation τ sig (Elt Ideal)) :
    after (seg2c1 (F := Ideal)) V (Proc.devRef .tc main_v28)
      = propagate (Cert.Net.segSum (V (Proc.devRef .tc main_arg4)) (mulf (Cert.Net.gathered (V (Proc.devRef .tc main_v14)) (V (Proc.devRef .tc main_arg3)))
          (Cert.Net.basisChained (V (Proc.devRef .tc main_arg2)) (V (Proc.devRef .tc main_arg7)) (V (Proc.devRef .tc main_arg8))))) (V (Proc.devRef .tc main_arg14)) := by
  after_results_simp
  rw [dot_E_64_128, dot_T_8_64, dot_T_42_8, gather_eq, scatter_eq]
  rfl

/-- The swish of that product. -/
theorem seg2c2_value (V : Valuation τ sig (Elt Ideal)) :
    after (seg2c2 (F := Ideal)) V (Proc.devRef .tc main_v29)
      = swish (V (Proc.devRef .tc main_v28) : Cert.Net.R 200000 128) := by
  after_results_simp
  simp only [TRef.toBuf, TRef.ofBuf, cast_cast, cast_eq]
  simp only [swish_host_keyed]

/-- The four pieces in order: swish ((sum per edge) · W_up) as a function of the arguments. -/
theorem seg2_value (V : Valuation τ sig (Elt Ideal)) :
    after (RunFold.seg2 (F := Ideal)) V (Proc.devRef .tc main_v29)
      = swish (propagate (Cert.Net.segSum (V (Proc.devRef .tc main_arg4)) (mulf (Cert.Net.gathered (Cert.Net.down (V (Proc.devRef .tc main_arg0)) (V (Proc.devRef .tc main_arg11)) (V (Proc.devRef .tc main_arg12))
          (Cert.Net.basisChained (V (Proc.devRef .tc main_arg1)) (V (Proc.devRef .tc main_arg5)) (V (Proc.devRef .tc main_arg6))) (V (Proc.devRef .tc main_arg13))) (V (Proc.devRef .tc main_arg3)))
          (Cert.Net.basisChained (V (Proc.devRef .tc main_arg2)) (V (Proc.devRef .tc main_arg7)) (V (Proc.devRef .tc main_arg8))))) (V (Proc.devRef .tc main_arg14))) := by
  rw [RunFold.seg2_eq, seg2c_eq, after_append, after_append, after_append,
    seg2c2_value, seg2c1_value, seg2b_keep _ main_arg3 (by decide), seg2b_value, seg2b_keep _ main_arg2 (by decide),
    seg2b_keep _ main_arg7 (by decide), seg2b_keep _ main_arg8 (by decide), seg2b_keep _ main_arg4 (by decide),
    seg2b_keep _ main_arg14 (by decide), seg2a_keep _ main_arg3 (by decide), seg2a_keep _ main_arg1 (by decide),
    seg2a_keep _ main_arg5 (by decide), seg2a_keep _ main_arg6 (by decide), seg2a_value, seg2a_keep _ main_arg13 (by decide),
    seg2a_keep _ main_arg2 (by decide), seg2a_keep _ main_arg7 (by decide), seg2a_keep _ main_arg8 (by decide),
    seg2a_keep _ main_arg4 (by decide), seg2a_keep _ main_arg14 (by decide)]
  rfl

/-- The kept messages plus the passed ones, through one residual pair of layers. -/
theorem seg3_value (V : Valuation τ sig (Elt Ideal)) :
    after (RunFold.seg3 (F := Ideal)) V (Proc.devRef .tc main_v41)
      = Cert.Net.resid (addf (V (Proc.devRef .tc main_v4)) (V (Proc.devRef .tc main_v29))) (V (Proc.devRef .tc main_arg15)) (V (Proc.devRef .tc main_arg16)) (V (Proc.devRef .tc main_arg17)) (V (Proc.devRef .tc main_arg18)) := by
  after_results_simp
  simp only [TRef.toBuf, TRef.ofBuf, cast_cast, cast_eq]
  simp only [swish_host_keyed]
  rfl

/-- A layer, and the skip x + ·. -/
theorem seg4_value (V : Valuation τ sig (Elt Ideal)) :
    after (RunFold.seg4 (F := Ideal)) V (Proc.devRef .tc main_v47)
      = addf (V (Proc.devRef .tc main_arg0)) (Cert.Net.dense (V (Proc.devRef .tc main_v41)) (V (Proc.devRef .tc main_arg19)) (V (Proc.devRef .tc main_arg20))) := by
  after_results_simp
  simp only [TRef.toBuf, TRef.ofBuf, cast_cast, cast_eq]
  simp only [swish_host_keyed]
  rfl

/-- A residual pair of layers. -/
theorem seg5_value (V : Valuation τ sig (Elt Ideal)) :
    after (RunFold.seg5 (F := Ideal)) V (Proc.devRef .tc main_v58)
      = Cert.Net.resid (V (Proc.devRef .tc main_v47)) (V (Proc.devRef .tc main_arg21)) (V (Proc.devRef .tc main_arg22)) (V (Proc.devRef .tc main_arg23)) (V (Proc.devRef .tc main_arg24)) := by
  after_results_simp
  simp only [TRef.toBuf, TRef.ofBuf, cast_cast, cast_eq]
  simp only [swish_host_keyed]
  rfl

/-- A residual pair of layers. -/
theorem seg6_value (V : Valuation τ sig (Elt Ideal)) :
    after (RunFold.seg6 (F := Ideal)) V (Proc.devRef .tc main_v69)
      = Cert.Net.resid (V (Proc.devRef .tc main_v58)) (V (Proc.devRef .tc main_arg25)) (V (Proc.devRef .tc main_arg26)) (V (Proc.devRef .tc main_arg27)) (V (Proc.devRef .tc main_arg28)) := by
  after_results_simp
  simp only [TRef.toBuf, TRef.ofBuf, cast_cast, cast_eq]
  simp only [swish_host_keyed]
  rfl

/-! ## The whole line -/

/-- The result buffer after all 161 operations, from arbitrary contents W: the block of W's argument buffers. -/
theorem fold_value (W : Valuation τ sig (Elt Ideal)) :
    after (RunFold.ops (F := Ideal)) W (Proc.devRef .tc main_v69)
      = Cert.Net.net (Cert.Net.basisChained (W (Proc.devRef .tc main_arg1)) (W (Proc.devRef .tc main_arg5)) (W (Proc.devRef .tc main_arg6)))
          (Cert.Net.basisChained (W (Proc.devRef .tc main_arg2)) (W (Proc.devRef .tc main_arg7)) (W (Proc.devRef .tc main_arg8)))
          (W (Proc.devRef .tc main_arg0)) (W (Proc.devRef .tc main_arg3)) (W (Proc.devRef .tc main_arg4))
          (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18))
          (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28)) := by
  rw [RunFold.ops_eq, after_append, after_append, after_append, after_append, after_append,
    seg6_value, seg5_value, seg5_keep _ main_arg25 (by decide), seg5_keep _ main_arg26 (by decide),
    seg5_keep _ main_arg27 (by decide), seg5_keep _ main_arg28 (by decide), seg4_value, seg4_keep _ main_arg21 (by decide),
    seg4_keep _ main_arg22 (by decide), seg4_keep _ main_arg23 (by decide), seg4_keep _ main_arg24 (by decide),
    seg4_keep _ main_arg25 (by decide), seg4_keep _ main_arg26 (by decide), seg4_keep _ main_arg27 (by decide),
    seg4_keep _ main_arg28 (by decide), seg3_value, seg3_keep _ main_arg19 (by decide), seg3_keep _ main_arg20 (by decide),
    seg3_keep _ main_arg0 (by decide), seg3_keep _ main_arg21 (by decide), seg3_keep _ main_arg22 (by decide),
    seg3_keep _ main_arg23 (by decide), seg3_keep _ main_arg24 (by decide), seg3_keep _ main_arg25 (by decide),
    seg3_keep _ main_arg26 (by decide), seg3_keep _ main_arg27 (by decide), seg3_keep _ main_arg28 (by decide),
    seg2_keep _ main_v4 (by decide), seg2_value, seg2_keep _ main_arg15 (by decide), seg2_keep _ main_arg16 (by decide),
    seg2_keep _ main_arg17 (by decide), seg2_keep _ main_arg18 (by decide), seg2_keep _ main_arg19 (by decide),
    seg2_keep _ main_arg20 (by decide), seg2_keep _ main_arg0 (by decide), seg2_keep _ main_arg21 (by decide),
    seg2_keep _ main_arg22 (by decide), seg2_keep _ main_arg23 (by decide), seg2_keep _ main_arg24 (by decide),
    seg2_keep _ main_arg25 (by decide), seg2_keep _ main_arg26 (by decide), seg2_keep _ main_arg27 (by decide),
    seg2_keep _ main_arg28 (by decide), seg1_value, seg1_keep _ main_arg0 (by decide), seg1_keep _ main_arg11 (by decide),
    seg1_keep _ main_arg12 (by decide), seg1_keep _ main_arg1 (by decide), seg1_keep _ main_arg5 (by decide),
    seg1_keep _ main_arg6 (by decide), seg1_keep _ main_arg13 (by decide), seg1_keep _ main_arg3 (by decide),
    seg1_keep _ main_arg2 (by decide), seg1_keep _ main_arg7 (by decide), seg1_keep _ main_arg8 (by decide),
    seg1_keep _ main_arg4 (by decide), seg1_keep _ main_arg14 (by decide), seg1_keep _ main_arg15 (by decide),
    seg1_keep _ main_arg16 (by decide), seg1_keep _ main_arg17 (by decide), seg1_keep _ main_arg18 (by decide),
    seg1_keep _ main_arg19 (by decide), seg1_keep _ main_arg20 (by decide), seg1_keep _ main_arg21 (by decide),
    seg1_keep _ main_arg22 (by decide), seg1_keep _ main_arg23 (by decide), seg1_keep _ main_arg24 (by decide),
    seg1_keep _ main_arg25 (by decide), seg1_keep _ main_arg26 (by decide), seg1_keep _ main_arg27 (by decide),
    seg1_keep _ main_arg28 (by decide)]
  rfl

/-- A buffer that no stretch writes keeps its contents through the whole line. -/
theorem ops_keep (V : Valuation τ sig (Elt Ideal)) (r : Ref sig .tc) (h1 : r ∉ seg1_W) (h2 : r ∉ seg2_W) (h3 : r ∉ seg3_W)
    (h4 : r ∉ seg4_W) (h5 : r ∉ seg5_W) (h6 : r ∉ seg6_W) :
    after (RunFold.ops (F := Ideal)) V (Proc.devRef .tc r) = V (Proc.devRef .tc r) := by
  rw [RunFold.ops_eq, after_append, after_append, after_append, after_append, after_append,
    seg6_keep _ r h6, seg5_keep _ r h5, seg4_keep _ r h4, seg3_keep _ r h3, seg2_keep _ r h2, seg1_keep _ r h1]

/-- Every weakly fair execution of the reference terminates with its result at the block of the arguments and the
    arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69)
        = Cert.Net.net (Cert.Net.basisChained (m ((c.tc : Thread nD τ).loc main_arg1)) (m ((c.tc : Thread nD τ).loc main_arg5)) (m ((c.tc : Thread nD τ).loc main_arg6)))
            (Cert.Net.basisChained (m ((c.tc : Thread nD τ).loc main_arg2)) (m ((c.tc : Thread nD τ).loc main_arg7)) (m ((c.tc : Thread nD τ).loc main_arg8)))
            (m ((c.tc : Thread nD τ).loc main_arg0)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun r h c => ⟨(h c main_v69).trans (fold_value _),
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide)),
      (h c main_arg15).trans (ops_keep _ main_arg15 (by decide) (by decide) (by decide) (by decide) (by decide) (by decide)),
      (h c main_arg16).trans (ops_keep _ main_arg16 (by decide) (by decide) (by decide) (by decide) (by decide) (by decide)),
      (h c main_arg17).trans (ops_keep _ main_arg17 (by decide) (by decide) (by decide) (by decide) (by decide) (by decide)),
      (h c main_arg18).trans (ops_keep _ main_arg18 (by decide) (by decide) (by decide) (by decide) (by decide) (by decide)),
      (h c main_arg19).trans (ops_keep _ main_arg19 (by decide) (by decide) (by decide) (by decide) (by decide) (by decide)),
      (h c main_arg20).trans (ops_keep _ main_arg20 (by decide) (by decide) (by decide) (by decide) (by decide) (by decide)),
      (h c main_arg21).trans (ops_keep _ main_arg21 (by decide) (by decide) (by decide) (by decide) (by decide) (by decide)),
      (h c main_arg22).trans (ops_keep _ main_arg22 (by decide) (by decide) (by decide) (by decide) (by decide) (by decide)),
      (h c main_arg23).trans (ops_keep _ main_arg23 (by decide) (by decide) (by decide) (by decide) (by decide) (by decide)),
      (h c main_arg24).trans (ops_keep _ main_arg24 (by decide) (by decide) (by decide) (by decide) (by decide) (by decide)),
      (h c main_arg25).trans (ops_keep _ main_arg25 (by decide) (by decide) (by decide) (by decide) (by decide) (by decide)),
      (h c main_arg26).trans (ops_keep _ main_arg26 (by decide) (by decide) (by decide) (by decide) (by decide) (by decide)),
      (h c main_arg27).trans (ops_keep _ main_arg27 (by decide) (by decide) (by decide) (by decide) (by decide) (by decide)),
      (h c main_arg28).trans (ops_keep _ main_arg28 (by decide) (by decide) (by decide) (by decide) (by decide) (by decide))⟩)
    (RunFold.run_fold m ρ)

end Cert.ReferenceIdeal.RefValue

end
-- ==== Proof.LibMatmulAssoc.lean ====
/-
  A product of three matrices of real numbers does not depend on which two are multiplied first.

  On the extended reals a product does not distribute over a sum when an infinity is among the terms, so
  A · (B · C) and (A · B) · C can differ; when every entry of A, B and C is a real number both are the real
  triple sum Σ_k Σ_l A(i,k) · B(k,l) · C(l,j). Stated for the host's plain product (Cert.BlockRows.propagate) over
  any sizes, with AllReal (every entry a real number), the coercion of a finite real sum, and an entry of a plain
  product as a sum.
-/
import proofs.«114219_j23149873725723_2_alg».proof.Proof.LibBlockRows

noncomputable section

open scoped BigOperators

namespace Cert.MatmulAssoc

open Idealize.ShloMosaic Idealize.ShloMosaic.ValueIdx Cert.BlockRows

/-- Every entry of an array is a real number. -/
def AllReal {s : Shape} (X : s.Idx → EReal) : Prop := ∀ i, ∃ r : ℝ, X i = (r : EReal)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Entry (i, j) of a plain product. -/
theorem propagate_apply {M K N : Nat} (A : FVec Ideal ⟨2, ![M, K]⟩ .f32) (G : FVec Ideal ⟨2, ![K, N]⟩ .f32)
    (i : Fin M) (j : Fin N) : propagate A G (ix2 i j) = ∑ k : Fin K, A (ix2 i k) * G (ix2 k j) :=
  Cert.LibHostReads.dotGeneral_plain_apply M K N none A G i j

/-- For matrices of real numbers, A · (B · C) = (A · B) · C. -/
theorem propagate_assoc {M a b n : Nat} (A : FVec Ideal ⟨2, ![M, a]⟩ .f32) (B : FVec Ideal ⟨2, ![a, b]⟩ .f32)
    (C : FVec Ideal ⟨2, ![b, n]⟩ .f32) (hA : AllReal A) (hB : AllReal B) (hC : AllReal C) :
    propagate A (propagate B C) = propagate (propagate A B) C := by
  choose fa hfa using hA
  choose fb hfb using hB
  choose fc hfc using hC
  funext idx
  obtain ⟨i, j, rfl⟩ : ∃ (i : Fin M) (j : Fin n), idx = ix2 i j := ⟨idx 0, idx 1, eq_ix2 idx⟩
  rw [propagate_apply, propagate_apply]
  simp only [propagate_apply, hfa, hfb, hfc, ← EReal.coe_mul, ← coe_sum]
  refine congrArg _ ?_
  simp only [Finset.mul_sum, Finset.sum_mul]
  rw [Finset.sum_comm]
  exact Finset.sum_congr rfl fun l _ => Finset.sum_congr rfl fun k _ => (mul_assoc _ _ _).symm

end Cert.MatmulAssoc

end
-- ==== Proof.FoldLaw.lean ====
/-
  The two spellings of a basis factor agree on real entries, and the block of equal arrays is equal.
-/
import proofs.«114219_j23149873725723_2_alg».proof.Proof.Net
import proofs.«114219_j23149873725723_2_alg».proof.Proof.LibMatmulAssoc

noncomputable section

namespace Cert.Net

open Idealize.ShloMosaic Cert.BlockRows Cert.MatmulAssoc

/-- With the two small tables multiplied first or left to right, a basis factor of real arrays is the same. -/
theorem basisFolded_eq_basisChained {M a b n : Nat} (A : R M a) (B : R a b) (C : R b n)
    (hA : AllReal A) (hB : AllReal B) (hC : AllReal C) : basisFolded A B C = basisChained A B C :=
  propagate_assoc A B C hA hB hC

/-- The block of equal arrays is equal. -/
theorem net_congr {Rm Rm' : R E 128} {Sm Sm' : R T 64} {x x' : R E 128} {a3 a3' : IVec (Row T) 32} {a4 a4' : IVec (Row T) 32} {Wji Wji' : R 128 128} {bji bji' : V 128} {Wkj Wkj' : R 128 128} {bkj bkj' : V 128} {Wdown Wdown' : R 128 64} {Wup Wup' : R 64 128} {Wb1 Wb1' : R 128 128} {bb1 bb1' : V 128} {Wb2 Wb2' : R 128 128} {bb2 bb2' : V 128} {Wfin Wfin' : R 128 128} {bfin bfin' : V 128} {Wa11 Wa11' : R 128 128} {ba11 ba11' : V 128} {Wa12 Wa12' : R 128 128} {ba12 ba12' : V 128} {Wa21 Wa21' : R 128 128} {ba21 ba21' : V 128} {Wa22 Wa22' : R 128 128} {ba22 ba22' : V 128}
    (h0 : Rm = Rm') (h1 : Sm = Sm') (h2 : x = x') (h3 : a3 = a3') (h4 : a4 = a4') (h5 : Wji = Wji') (h6 : bji = bji') (h7 : Wkj = Wkj') (h8 : bkj = bkj') (h9 : Wdown = Wdown') (h10 : Wup = Wup') (h11 : Wb1 = Wb1') (h12 : bb1 = bb1') (h13 : Wb2 = Wb2') (h14 : bb2 = bb2') (h15 : Wfin = Wfin') (h16 : bfin = bfin') (h17 : Wa11 = Wa11') (h18 : ba11 = ba11') (h19 : Wa12 = Wa12') (h20 : ba12 = ba12') (h21 : Wa21 = Wa21') (h22 : ba21 = ba21') (h23 : Wa22 = Wa22') (h24 : ba22 = ba22') :
    net Rm Sm x a3 a4 Wji bji Wkj bkj Wdown Wup Wb1 bb1 Wb2 bb2 Wfin bfin Wa11 ba11 Wa12 ba12 Wa21 ba21 Wa22 ba22 = net Rm' Sm' x' a3' a4' Wji' bji' Wkj' bkj' Wdown' Wup' Wb1' bb1' Wb2' bb2' Wfin' bfin' Wa11' ba11' Wa12' ba12' Wa21' ba21' Wa22' ba22' := by
  subst h0 h1 h2 h3 h4 h5 h6 h7 h8 h9 h10 h11 h12 h13 h14 h15 h16 h17 h18 h19 h20 h21 h22 h23 h24
  rfl

end Cert.Net

end
-- ==== Proof.Reals.lean ====
/-
  The precondition is a single truth value: the conjunction, over every float argument array, of
  "all entries have absolute value below +∞". A conjunction that holds has each conjunct holding, so the running
  conjunction is peeled from its last term back to its first; for each of the six arrays of the two basis factors this
  leaves |x| < +∞ at every entry x. On the extended reals that rules out +∞ and −∞, so every entry is a real number.
-/
import proofs.«114219_j23149873725723_2_alg».proof.Defs
import proofs.«114219_j23149873725723_2_alg».proof.Proof.Gen.KernelIdeal
import proofs.«114219_j23149873725723_2_alg».proof.Proof.Gen.Pre_finite_inputs
import Idealize.ShloMosaic.Lib.ReduceAll
import Idealize.ShloMosaic.Lib.ValueIdx

noncomputable section

namespace Cert.Proof.Reals

open Idealize.ShloMosaic Idealize.SL.Sem

/-- Every entry of an array is a real number. -/
def AllReal {s : Shape} (X : s.Idx → EReal) : Prop := ∀ i, ∃ r : ℝ, X i = (r : EReal)

section Decode

open Cert.Pre_finite_inputs Cert.Pre_finite_inputs.Facts

/-- The shape with no axes has exactly one index. -/
instance : Subsingleton S_.Idx := ⟨fun a b => funext fun d => d.elim0⟩

/-- A pointwise conjunction of two truth-valued arrays that is everywhere true has both arrays everywhere true. -/
theorem andi_one {s : Shape} {a b : IVec s 1} (h : andi a b = fun _ => 1#1) :
    a = (fun _ => 1#1) ∧ b = (fun _ => 1#1) :=
  ⟨funext fun i => (IntOp.andi_eq_one.1 (congrFun h i)).1, funext fun i => (IntOp.andi_eq_one.1 (congrFun h i)).2⟩

/-- An extended real whose absolute value `max x (-x)` compares below +∞ is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  obtain ⟨h1, h2⟩ := max_lt_iff.1 hlt
  have hx : x ≠ ⊤ := h1.ne
  have hx' : x ≠ ⊥ := by
    intro e
    rw [e] at h2
    simp at h2
  exact ⟨x.toReal, (EReal.coe_toReal hx hx').symm⟩

/-- If "all entries of |X| are below +∞", reduced by conjunction over every axis, is true, then X has real entries. -/
theorem real_of_all {s : Shape} {axes : List (Fin s.rank)} (X : FVec Ideal s .f32)
    (hb : S_.BroadcastsInDim s (![] : Fin 0 → Fin s.rank)) (hr : s.ReducesTo axes S_) (hu : 0 < S_.numel)
    (h : Host.reduce IntOp.andi (cmpf .olt (Host.absf X) (broadcastInDim s ![] hb (constant S_ .f32 0x7F800000#32)))
          (constantI S_ 1 1#1) hr hu = fun _ => 1#1) : AllReal X := by
  intro i
  have e := Host.reduce_andi_all _ _ hr hu ValueIdx.ix0 (congrFun h ValueIdx.ix0) i
  exact real_of_abs_lt_top (X i) e

/-! The running conjunction, from its last stretch to its first: if the value of a stretch is true, so was the
    conjunction it was handed. -/

theorem part7_acc {a27 a28 acc v119} (h : fn_part7 (F := Ideal) a27 a28 acc v119 = fun _ => 1#1) :
    acc = fun _ => 1#1 := by
  dsimp only [fn_part7] at h
  exact (andi_one (andi_one (andi_one h).1).1).1

theorem part6_acc {a23 a24 a25 a26 a27 a28 acc v101 c39} (h : fn_part6 (F := Ideal) a23 a24 a25 a26 a27 a28 acc v101 c39 = fun _ => 1#1) :
    acc = fun _ => 1#1 := by
  dsimp only [fn_part6] at h
  exact (andi_one (andi_one (andi_one (andi_one (part7_acc h)).1).1).1).1

theorem part5_acc {a20 a21 a22 a23 a24 a25 a26 a27 a28 acc v84 cst32} (h : fn_part5 (F := Ideal) a20 a21 a22 a23 a24 a25 a26 a27 a28 acc v84 cst32 = fun _ => 1#1) :
    acc = fun _ => 1#1 := by
  dsimp only [fn_part5] at h
  exact (andi_one (andi_one (andi_one (part6_acc h)).1).1).1

theorem part4_acc {a16 a17 a18 a19 a20 a21 a22 a23 a24 a25 a26 a27 a28 acc v67} (h : fn_part4 (F := Ideal) a16 a17 a18 a19 a20 a21 a22 a23 a24 a25 a26 a27 a28 acc v67 = fun _ => 1#1) :
    acc = fun _ => 1#1 := by
  dsimp only [fn_part4] at h
  exact (andi_one (andi_one (andi_one (andi_one (part5_acc h)).1).1).1).1

theorem part3_acc {a13 a14 a15 a16 a17 a18 a19 a20 a21 a22 a23 a24 a25 a26 a27 a28 acc v49 v50} (h : fn_part3 (F := Ideal) a13 a14 a15 a16 a17 a18 a19 a20 a21 a22 a23 a24 a25 a26 a27 a28 acc v49 v50 = fun _ => 1#1) :
    acc = fun _ => 1#1 := by
  dsimp only [fn_part3] at h
  exact (andi_one (andi_one (andi_one (part4_acc h)).1).1).1

theorem part2_acc {a9 a10 a11 a12 a13 a14 a15 a16 a17 a18 a19 a20 a21 a22 a23 a24 a25 a26 a27 a28 acc} (h : fn_part2 (F := Ideal) a9 a10 a11 a12 a13 a14 a15 a16 a17 a18 a19 a20 a21 a22 a23 a24 a25 a26 a27 a28 acc = fun _ => 1#1) :
    acc = fun _ => 1#1 := by
  dsimp only [fn_part2] at h
  exact (andi_one (andi_one (andi_one (part3_acc h)).1).1).1

/-- The second stretch: the conjunction handed in was true, the pending "all" of the first small table is true, and
    the three tables tested inside this stretch have real entries. -/
theorem part1_pre {a6 a7 a8 a9 a10 a11 a12 a13 a14 a15 a16 a17 a18 a19 a20 a21 a22 a23 a24 a25 a26 a27 a28 acc v16} (h : fn_part1 (F := Ideal) a6 a7 a8 a9 a10 a11 a12 a13 a14 a15 a16 a17 a18 a19 a20 a21 a22 a23 a24 a25 a26 a27 a28 acc v16 = fun _ => 1#1) :
    acc = (fun _ => 1#1)
      ∧ Host.reduce IntOp.andi v16 (constantI S_ 1 1#1) reducesTo_S6x8_S_d0_1 h_S_ = (fun _ => 1#1)
      ∧ AllReal a6 ∧ AllReal a7 ∧ AllReal a8 := by
  dsimp only [fn_part1] at h
  have p33 := andi_one (part2_acc h)
  have p28 := andi_one p33.1
  have p23 := andi_one p28.1
  have p18 := andi_one p23.1
  exact ⟨p18.1, p18.2, real_of_all a6 _ _ _ p23.2, real_of_all a7 _ _ _ p28.2, real_of_all a8 _ _ _ p33.2⟩

/-- The whole predicate: if it is true, the six arrays of the two basis factors have real entries. -/
theorem fn_pre {a0 a1 a2 a3 a4 a5 a6 a7 a8 a9 a10 a11 a12 a13 a14 a15 a16 a17 a18 a19 a20 a21 a22 a23 a24 a25 a26 a27 a28} (h : fn (F := Ideal) a0 a1 a2 a3 a4 a5 a6 a7 a8 a9 a10 a11 a12 a13 a14 a15 a16 a17 a18 a19 a20 a21 a22 a23 a24 a25 a26 a27 a28 = fun _ => 1#1) :
    AllReal a1 ∧ AllReal a5 ∧ AllReal a6 ∧ AllReal a2 ∧ AllReal a7 ∧ AllReal a8 := by
  dsimp only [fn] at h
  obtain ⟨h13, h17, r6, r7, r8⟩ := part1_pre h
  have p13 := andi_one h13
  have p8 := andi_one p13.1
  exact ⟨real_of_all a1 _ _ _ p8.2, real_of_all a5 _ _ _ h17, r6, real_of_all a2 _ _ _ p13.2, r7, r8⟩

end Decode

/-- The precondition (every float input's absolute value below +inf, all of them at once) makes the radial basis,
    the angular basis and their four small tables arrays of real numbers. -/
theorem entries_real (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg1)) ∧ AllReal (m ((c.tc : Thread Cert.KernelIdeal.nD Cert.KernelIdeal.τ).loc Cert.KernelIdeal.main_arg5)) ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg2)) ∧ AllReal (m ((c.tc : Thread Cert.KernelIdeal.nD Cert.KernelIdeal.τ).loc Cert.KernelIdeal.main_arg7)) ∧ AllReal (m ((c.tc : Thread Cert.KernelIdeal.nD Cert.KernelIdeal.τ).loc Cert.KernelIdeal.main_arg8)) :=
  fn_pre (h c)

end Cert.Proof.Reals

end
-- ==== Proof.lean ====
/-
  An interaction block of a directional message-passing network, computed by three grids of blocks among host
  operations, against the plain array program.

  Both programs compute, on the extended reals, the same function of the 29 argument arrays (Proof/Net.lean), except
  that the kernel multiplies the two small tables of each basis factor first, A · (B · C), where the reference
  multiplies left to right, (A · B) · C. The two agree when the three matrices have real entries (Proof/FoldLaw.lean),
  which the precondition gives (Proof/Reals.lean). The kernel's value is read off its run grid by grid
  (Proof/KernelRun.lean, Proof/Region0–2.lean, Proof/Chain.lean), the reference's off the fold of its operations
  (Proof/RefRunFold.lean, Proof/RefValue.lean). A change of float format is the identity on the extended reals, the
  matrix unit's product into zeros is the plain product, and y · logistic y is the host's y / (1 + exp (−y)).
-/
import proofs.«114219_j23149873725723_2_alg».proof.Defs
import proofs.«114219_j23149873725723_2_alg».proof.Proof.Gen.Kernel
import proofs.«114219_j23149873725723_2_alg».proof.Proof.Gen.Kernel.Frame
import proofs.«114219_j23149873725723_2_alg».proof.Proof.Gen.KernelIdeal
import proofs.«114219_j23149873725723_2_alg».proof.Proof.Gen.KernelIdeal.Frame
import proofs.«114219_j23149873725723_2_alg».proof.Proof.Gen.ReferenceIdeal
import proofs.«114219_j23149873725723_2_alg».proof.Proof.Gen.Pre_finite_inputs
import proofs.«114219_j23149873725723_2_alg».proof.Proof.KernelRun
import proofs.«114219_j23149873725723_2_alg».proof.Proof.Chain
import proofs.«114219_j23149873725723_2_alg».proof.Proof.RefValue
import proofs.«114219_j23149873725723_2_alg».proof.Proof.FoldLaw
import proofs.«114219_j23149873725723_2_alg».proof.Proof.Reals
import Idealize.ShloMosaic.Adequacy
import Idealize.ShloMosaic.Init

noncomputable section

namespace Cert.Proof

open Idealize.ShloMosaic Idealize.SL.Sem

/-- The word-level kernel terminates, faults nowhere and leaves its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.RefValue.run_value m ρ)

/-- From memories agreeing on the arguments both runs end with the result at one function of the arguments: the
    block with each basis factor's small tables multiplied first (the kernel's spelling), equal to the reference's
    left-to-right product because rbf, sbf and the four tables are arrays of real numbers. -/
theorem algebraic : Cert.algebraic_KernelIdeal_ReferenceIdeal := by
  intro m ρ m' ρ' hpre hagree
  refine ⟨fun c => Cert.Net.net (Cert.Net.basisFolded (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (Cert.Net.basisFolded (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · exact (θ_run Cert.KernelIdeal.defs _ _).mono
      (fun r h c => ⟨(h c).1.trans (Cert.KernelIdeal.Chain.kernel_value m ρ c), (h c).2⟩)
      (Cert.KernelIdeal.Named.run_named m ρ)
  · refine (θ_run Cert.ReferenceIdeal.defs _ _).mono (fun r h c => ⟨(h c).1.trans ?_, (h c).2⟩)
      (Cert.ReferenceIdeal.RefValue.run_value m' ρ')
    obtain ⟨h0, h1, h2, h3, h4, h5, h6, h7, h8, h9, h10, h11, h12, h13, h14, h15, h16, h17, h18, h19, h20, h21, h22, h23, h24, h25, h26, h27, h28⟩ := hagree c
    obtain ⟨r1, r5, r6, r2, r7, r8⟩ := Cert.Proof.Reals.entries_real m hpre c
    refine Cert.Net.net_congr ?_ ?_ h0 h3 h4 h9 h10 h11 h12 h13 h14 h15 h16 h17 h18 h19 h20 h21 h22 h23 h24 h25 h26 h27 h28
    · rw [h1, h5, h6]
      exact (Cert.Net.basisFolded_eq_basisChained _ _ _ r1 r5 r6).symm
    · rw [h2, h7, h8]
      exact (Cert.Net.basisFolded_eq_basisChained _ _ _ r2 r7 r8).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
